-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S1000000 : Shape := ⟨1, ![1000000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x256 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_v33

def fn {F : FTy → Type} [FloatOps F] (main_arg0 : FVec F S200000x128 .f32) (main_arg1 : FVec F S50000x128 .f32) (main_arg2 : FVec F S128x128 .f32) (main_arg3 : FVec F S128 .f32) (main_arg4 : FVec F S128x128 .f32) (main_arg5 : FVec F S128 .f32) (main_arg6 : FVec F S128x256 .f32) (main_arg7 : FVec F S128 .f32) (main_arg8 : IVec S1000000 32) (main_arg9 : IVec S1000000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S200000x128 : Shape := ⟨2, ![200000, 128]⟩
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S1000000 : Shape := ⟨1, ![1000000]⟩
abbrev S8000x128 : Shape := ⟨2, ![8000, 128]⟩
abbrev S10000x128 : Shape := ⟨2, ![10000, 128]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩
abbrev S200000 : Shape := ⟨1, ![200000]⟩
abbrev S200000x1 : Shape := ⟨2, ![200000, 1]⟩
abbrev S1x128 : Shape := ⟨2, ![1, 128]⟩
abbrev S5000x128 : Shape := ⟨2, ![5000, 128]⟩
abbrev S5000x1 : Shape := ⟨2, ![5000, 1]⟩
abbrev S50000x1 : Shape := ⟨2, ![50000, 1]⟩

abbrev nBuf : Space → Nat
  | .hbm => 64
  | .vmem => 34
  | .smem => 0
  | _ => 0

abbrev bufTy : (tb : Table) → Fin (tcTables nBuf tb) → BufTy
  | .hbm, ⟨0, _⟩ => ⟨S200000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S1000000, .i32⟩
  | .hbm, ⟨9, _⟩ => ⟨S1000000, .i32⟩
  | .hbm, ⟨10, _⟩ => ⟨S128x128, .f32⟩
  | .hbm, ⟨11, _⟩ => ⟨S200000x128, .bf16⟩
  | .hbm, ⟨12, _⟩ => ⟨S128x128, .f32⟩
  | .hbm, ⟨13, _⟩ => ⟨S50000x128, .bf16⟩
  | .hbm, ⟨14, _⟩ => ⟨S_, .f32⟩
  | .hbm, ⟨15, _⟩ => ⟨S1000000, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .bf16⟩
  | .hbm, ⟨25, _⟩ => ⟨S1000000x128, .f32⟩
  | .hbm, ⟨26, _⟩ => ⟨S_, .f32⟩
  | .hbm, ⟨27, _⟩ => ⟨S50000x128, .f32⟩
  | .hbm, ⟨28, _⟩ => ⟨S1000000x1, .i32⟩
  | .hbm, ⟨29, _⟩ => ⟨S50000x128, .f32⟩
  | .hbm, ⟨30, _⟩ => ⟨S_, .f32⟩
  | .hbm, ⟨31, _⟩ => ⟨S50000, .f32⟩
  | .hbm, ⟨32, _⟩ => ⟨S1000000x1, .i32⟩
  | .hbm, ⟨33, _⟩ => ⟨S50000, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x128, .bf16⟩
  | .hbm, ⟨43, _⟩ => ⟨S1000000x128, .f32⟩
  | .hbm, ⟨44, _⟩ => ⟨S_, .f32⟩
  | .hbm, ⟨45, _⟩ => ⟨S200000x128, .f32⟩
  | .hbm, ⟨46, _⟩ => ⟨S1000000x1, .i32⟩
  | .hbm, ⟨47, _⟩ => ⟨S200000x128, .f32⟩
  | .hbm, ⟨48, _⟩ => ⟨S_, .f32⟩
  | .hbm, ⟨49, _⟩ => ⟨S200000, .f32⟩
  | .hbm, ⟨50, _⟩ => ⟨S1000000x1, .i32⟩
  | .hbm, ⟨51, _⟩ => ⟨S200000, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S200000x1, .f32⟩
  | .hbm, ⟨57, _⟩ => ⟨S1x128, .f32⟩
  | .hbm, ⟨58, _⟩ => ⟨S1x128, .f32⟩
  | .hbm, ⟨59, _⟩ => ⟨S200000x128, .f32⟩
  | .hbm, ⟨60, _⟩ => ⟨S50000x1, .f32⟩
  | .hbm, ⟨61, _⟩ => ⟨S1x128, .f32⟩
  | .hbm, ⟨62, _⟩ => ⟨S1x128, .f32⟩
  | .hbm, ⟨63, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S8000x128, .bf16⟩
  | .local _ .vmem, ⟨4, _⟩ => ⟨S8000x128, .bf16⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .bf16⟩
  | .local _ .vmem, ⟨9, _⟩ => ⟨S10000x128, .bf16⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  transposes_S128x128_S128x128_1_0 : S128x128.Transposes [1, 0] S128x128
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S8000x128_S8000x128_0_0 : (Rect.unit (s := S8000x128) ![0, 0] S8000x128.size inb_S8000x128_S8000x128_0_0).PackedRows (EltTy.packing .bf16)
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S50000 : S_.BroadcastsInDim S50000 (![] : Fin 0 → Fin S50000.rank)
  bcast_S_S200000x128 : S_.BroadcastsInDim S200000x128 (![] : Fin 0 → Fin S200000x128.rank)
  bcast_S_S200000 : S_.BroadcastsInDim S200000 (![] : Fin 0 → Fin S200000.rank)
  slices_S128x256_S128x128_0_0 : S128x256.Slices ![0, 0] S128x128
  slices_S128x256_S128x128_0_128 : S128x256.Slices ![0, 128] S128x128
  shapeCasts_S200000_S200000x1 : S200000.ShapeCasts S200000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  shapeCasts_S50000_S50000x1 : S50000.ShapeCasts S50000x1
  dot_S8000x128_S128x128_S8000x128_1_0_0_1_n_n_wf : DotDims.WF S8000x128 S128x128 S8000x128 [1] [0] [0] [1] [] []
  dot_S10000x128_S128x128_S10000x128_1_0_0_1_n_n_wf : DotDims.WF S10000x128 S128x128 S10000x128 [1] [0] [0] [1] [] []
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S200000x128.size a
  hwx0_2 : ∀ i : grid0.Coords, EltTy.bits .bf16 = 32 ∨ (Rect.block (s := S200000x128) S8000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .bf16 = 32 ∨ (Rect.block (s := S50000x128) S10000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S200000x1.size a
  hwx2_2 : ∀ i : grid2.Coords, EltTy.bits .f32 = 32 ∨ (Rect.block (s := S200000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S200000x128.size a
  hwx2_7 : ∀ i : grid2.Coords, EltTy.bits .f32 = 32 ∨ (Rect.block (s := S200000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg1) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v34) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v44) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S200000x128 : Shape := ⟨2, ![200000, 128]⟩
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1x128 : Shape := ⟨2, ![1, 128]⟩
abbrev S50000 : Shape := ⟨1, ![50000]⟩
abbrev S200000 : Shape := ⟨1, ![200000]⟩
abbrev S200000x1 : Shape := ⟨2, ![200000, 1]⟩
abbrev S200000x256 : Shape := ⟨2, ![200000, 256]⟩
abbrev S256x128 : Shape := ⟨2, ![256, 128]⟩
abbrev S50000x1 : Shape := ⟨2, ![50000, 1]⟩
abbrev S50000x256 : Shape := ⟨2, ![50000, 256]⟩

abbrev nBuf : Space → Nat
  | .hbm => 108
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S1000000, .i32⟩
  | .hbm, ⟨9, _⟩ => ⟨S1000000, .i32⟩
  | .hbm, ⟨10, _⟩ => ⟨S_, .f32⟩
  | .hbm, ⟨11, _⟩ => ⟨S1000000, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S128x128, .f32⟩
  | .hbm, ⟨22, _⟩ => ⟨S1000000x128, .f32⟩
  | .hbm, ⟨23, _⟩ => ⟨S1x128, .f32⟩
  | .hbm, ⟨24, _⟩ => ⟨S1000000x128, .f32⟩
  | .hbm, ⟨25, _⟩ => ⟨S1000000x128, .f32⟩
  | .hbm, ⟨26, _⟩ => ⟨S_, .f32⟩
  | .hbm, ⟨27, _⟩ => ⟨S50000x128, .f32⟩
  | .hbm, ⟨28, _⟩ => ⟨S1000000x1, .i32⟩
  | .hbm, ⟨29, _⟩ => ⟨S50000x128, .f32⟩
  | .hbm, ⟨30, _⟩ => ⟨S_, .f32⟩
  | .hbm, ⟨31, _⟩ => ⟨S50000, .f32⟩
  | .hbm, ⟨32, _⟩ => ⟨S1000000x1, .i32⟩
  | .hbm, ⟨33, _⟩ => ⟨S50000, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x128, .f32⟩
  | .hbm, ⟨43, _⟩ => ⟨S128x128, .f32⟩
  | .hbm, ⟨44, _⟩ => ⟨S1000000x128, .f32⟩
  | .hbm, ⟨45, _⟩ => ⟨S1x128, .f32⟩
  | .hbm, ⟨46, _⟩ => ⟨S1000000x128, .f32⟩
  | .hbm, ⟨47, _⟩ => ⟨S1000000x128, .f32⟩
  | .hbm, ⟨48, _⟩ => ⟨S_, .f32⟩
  | .hbm, ⟨49, _⟩ => ⟨S200000x128, .f32⟩
  | .hbm, ⟨50, _⟩ => ⟨S1000000x1, .i32⟩
  | .hbm, ⟨51, _⟩ => ⟨S200000x128, .f32⟩
  | .hbm, ⟨52, _⟩ => ⟨S_, .f32⟩
  | .hbm, ⟨53, _⟩ => ⟨S200000, .f32⟩
  | .hbm, ⟨54, _⟩ => ⟨S1000000x1, .i32⟩
  | .hbm, ⟨55, _⟩ => ⟨S200000, .f32⟩
  | .hbm, ⟨56, _⟩ => ⟨S_, .f32⟩
  | .hbm, ⟨57, _⟩ => ⟨S200000, .f32⟩
  | .hbm, ⟨58, _⟩ => ⟨S200000, .f32⟩
  | .hbm, ⟨59, _⟩ => ⟨S200000x1, .f32⟩
  | .hbm, ⟨60, _⟩ => ⟨S200000x128, .f32⟩
  | .hbm, ⟨61, _⟩ => ⟨S200000x128, .f32⟩
  | .hbm, ⟨62, _⟩ => ⟨S200000x256, .f32⟩
  | .hbm, ⟨63, _⟩ => ⟨S256x128, .f32⟩
  | .hbm, ⟨64, _⟩ => ⟨S200000x128, .f32⟩
  | .hbm, ⟨65, _⟩ => ⟨S1x128, .f32⟩
  | .hbm, ⟨66, _⟩ => ⟨S200000x128, .f32⟩
  | .hbm, ⟨67, _⟩ => ⟨S200000x128, .f32⟩
  | .hbm, ⟨68, _⟩ => ⟨S200000x128, .f32⟩
  | .hbm, ⟨69, _⟩ => ⟨S200000x128, .f32⟩
  | .hbm, ⟨70, _⟩ => ⟨S_, .f32⟩
  | .hbm, ⟨71, _⟩ => ⟨S200000x128, .f32⟩
  | .hbm, ⟨72, _⟩ => ⟨S200000x128, .f32⟩
  | .hbm, ⟨73, _⟩ => ⟨S_, .f32⟩
  | .hbm, ⟨74, _⟩ => ⟨S200000x128, .f32⟩
  | .hbm, ⟨75, _⟩ => ⟨S200000x128, .f32⟩
  | .hbm, ⟨76, _⟩ => ⟨S200000x128, .f32⟩
  | .hbm, ⟨77, _⟩ => ⟨S_, .f32⟩
  | .hbm, ⟨78, _⟩ => ⟨S200000x128, .f32⟩
  | .hbm, ⟨79, _⟩ => ⟨S200000x128, .f32⟩
  | .hbm, ⟨80, _⟩ => ⟨S200000x128, .f32⟩
  | .hbm, ⟨81, _⟩ => ⟨S200000x128, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S50000x256, .f32⟩
  | .hbm, ⟨89, _⟩ => ⟨S256x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S50000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S128x128_S128x128_1_0 : S128x128.Transposes [1, 0] S128x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S50000x128 : S_.BroadcastsInDim S50000x128 (![] : Fin 0 → Fin S50000x128.rank)
  bcast_S_S50000 : S_.BroadcastsInDim S50000 (![] : Fin 0 → Fin S50000.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  concatenates_S200000x128_S200000x128_S200000x256_d1 : Shape.Concatenates [S200000x128, S200000x128] S200000x256 1
  transposes_S128x256_S256x128_1_0 : S128x256.Transposes [1, 0] S256x128
  bcast_S1x128_S200000x128_0_1 : S1x128.BroadcastsInDim S200000x128 (![0, 1] : Fin 2 → Fin S200000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S200000x128_S1000000x1_S1000000x128_1_0_n_n_0_1_1128_wf : GatherDims.WF S200000x128 S1000000x1 S1000000x128 [1] [0] [] [0] [] 1 ![1, 128]
  dot_S1000000x128_S128x128_S1000000x128_1_0_0_1_n_n_wf : DotDims.WF S1000000x128 S128x128 S1000000x128 [1] [0] [0] [1] [] []
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S200000x256_S256x128_S200000x128_1_0_0_1_n_n_wf : DotDims.WF S200000x256 S256x128 S200000x128 [1] [0] [0] [1] [] []
  dot_S50000x256_S256x128_S50000x128_1_0_0_1_n_n_wf : DotDims.WF S50000x256 S256x128 S50000x128 [1] [0] [0] [1] [] []

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel program's run, with its two results named.

  The program is four kernel regions among stretches of host operations. The generated frame follows the buffer
  contents through the program as a fold from the launch memory: `W8 m ρ c` is what core `c`'s buffers hold after the
  last region. Here the same launch over the same segments is read at the two result buffers as well as at the
  arguments: every weakly fair execution terminates without a fault, the results hold `W8`'s contents and the
  arguments are as launched.
-/
import proofs.«125434_j47390669144622_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the two result buffers end at the
    contents the fold through the program gives them, and the argument arrays end as launched. -/
theorem run_values : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)), h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KernelRun

end
-- ==== Proof.Fold.lean ====
/-
  What the program's buffers hold when each region is entered, and what its two result buffers hold at the end.

  The program maps table A and table B through their relations' matrices (regions 0 and 1), then on the host gathers
  mapped rows edge by edge, sums them per destination row, counts the edges, cuts and transposes the gate matrix and
  recasts the biases, and blends each table with its mean message (regions 2 and 3). The generated frame gives the
  contents of every buffer at every boundary as a fold from the launch memory `m`. Here that fold is walked back, buffer
  by buffer: no operation and no region writes an argument, so an argument is as launched; a host result is its
  operation applied to earlier contents; a region's output array is what its grid points wrote back, named
  `(dat … ).arrAt`; a region's input array leaves the region as it entered.
-/
import proofs.«125434_j47390669144622_2_alg».proof.Proof.Gen.KernelIdeal.Frame
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

/-- The column of start indices made from raw row ids. -/
abbrev rawCol (idx : IVec S1000000 32) : IVec S1000000x1 32 :=
  broadcastInDim S1000000x1 ![0] bcast_S1000000_S1000000x1_0 idx

/-- The column of start indices made from row ids with the negative ones shifted up by the table's height `n`. -/
abbrev wrapCol (n : BitVec 32) (idx : IVec S1000000 32) : IVec S1000000x1 32 :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 n))) idx)

/-! ## The arguments, after the two mapping regions -/

theorem W4_arg0 : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem W4_arg1 : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

theorem W4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem W4_arg5 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

theorem W4_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

theorem W4_arg7 : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

theorem W4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

theorem W4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

/-! ## The mapping regions' operands and results -/

theorem V1_arg0 : V1 m ρ c main_arg0 = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0))

theorem V1_v0 : V1 m ρ c main_v0 = transpose S128x128 [1, 0] (m ((c : Thread nD τ).loc main_arg2)) transposes_S128x128_S128x128_1_0 := by
  show StableHlo.after hostOps0 (W0 m ρ c) (Proc.devRef .tc main_v0) = _
  after_results

theorem V3_arg1 : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem V3_v2 : V3 m ρ c main_v2 = transpose S128x128 [1, 0] (m ((c : Thread nD τ).loc main_arg4)) transposes_S128x128_S128x128_1_0 := by
  show StableHlo.after hostOps1 (W2 m ρ c) (Proc.devRef .tc main_v2) = _
  after_results
  rw [W2_arg4]

/-- Table A mapped: region 0's output array, still in place after region 1. -/
theorem W4_v1 : W4 m ρ c (Proc.devRef .tc main_v1) = (dat0 (V1 m ρ) c).arrAt 2 cfg0.N :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 2 cfg0.N := W2_arr m ρ c 2

/-- Table B mapped: region 1's output array. -/
theorem W4_v3 : W4 m ρ c (Proc.devRef .tc main_v3) = (dat1 (V3 m ρ) c).arrAt 2 cfg1.N := W4_arr m ρ c 2

end Cert.KernelIdeal.Fold

end
-- ==== Proof.Fold2.lean ====
/-
  The operands of the two blending regions.

  Region 2 blends table A: its operands are the table itself, the mapped rows of table B summed per row of A, the
  edge counts of A's rows as a column, the two transposed halves of the gate matrix, the reverse relation's bias and
  the gate bias as rows. Region 3 blends table B with the roles of the tables exchanged. Each operand is read here as
  the host operations' term over the launch memory and the two mapped tables.
-/
import proofs.«125434_j47390669144622_2_alg».proof.Proof.Fold

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

/-- Rows of the mapped table B (`T`), gathered by the wrapped destination ids and summed per source id into a zero table. -/
def aggA (T : FVec Ideal S50000x128 .bf16) (src dst : IVec S1000000 32) : FVec Ideal S200000x128 .f32 :=
  Host.scatterAdd scatter_S200000x128_S1000000x1_S1000000x128_1_0_0_1
    (broadcastInDim S200000x128 ![] bcast_S_S200000x128 (constant (F := Ideal) S_ .f32 0x00000000#32)) (rawCol src)
    (extf .f32 (Host.gather gather_S50000x128_S1000000x1_S1000000x128_1_0_n_n_0_1_1128 T (wrapCol 50000#32 dst)) bitsLt_bf16_f32)

/-- The number of edges per source id, as a column: ones summed per source id into a zero vector. -/
def cntA (src : IVec S1000000 32) : FVec Ideal S200000x1 .f32 :=
  shapeCast S200000x1 (Host.scatterAdd scatter_S200000_S1000000x1_S1000000_n_0_0_1
    (broadcastInDim S200000 ![] bcast_S_S200000 (constant (F := Ideal) S_ .f32 0x00000000#32)) (rawCol src)
    (broadcastInDim S1000000 ![] bcast_S_S1000000 (constant (F := Ideal) S_ .f32 0x3F800000#32))) shapeCasts_S200000_S200000x1

/-- Rows of the mapped table A (`T`), gathered by the wrapped source ids and summed per destination id. -/
def aggB (T : FVec Ideal S200000x128 .bf16) (src dst : IVec S1000000 32) : FVec Ideal S50000x128 .f32 :=
  Host.scatterAdd scatter_S50000x128_S1000000x1_S1000000x128_1_0_0_1
    (broadcastInDim S50000x128 ![] bcast_S_S50000x128 (constant (F := Ideal) S_ .f32 0x00000000#32)) (rawCol dst)
    (extf .f32 (Host.gather gather_S200000x128_S1000000x1_S1000000x128_1_0_n_n_0_1_1128 T (wrapCol 200000#32 src)) bitsLt_bf16_f32)

/-- The number of edges per destination id, as a vector. -/
def cntVecB (dst : IVec S1000000 32) : FVec Ideal S50000 .f32 :=
  Host.scatterAdd scatter_S50000_S1000000x1_S1000000_n_0_0_1
    (broadcastInDim S50000 ![] bcast_S_S50000 (constant (F := Ideal) S_ .f32 0x00000000#32)) (rawCol dst)
    (broadcastInDim S1000000 ![] bcast_S_S1000000 (constant (F := Ideal) S_ .f32 0x3F800000#32))

/-- The same as a column. -/
def cntB (dst : IVec S1000000 32) : FVec Ideal S50000x1 .f32 := shapeCast S50000x1 (cntVecB dst) shapeCasts_S50000_S50000x1

/-- A transposed half of the gate matrix, the half starting at column `o`. -/
def gateHalf (o : ℕ) (hs : S128x256.Slices ![0, o] S128x128) (Wg : FVec Ideal S128x256 .f32) : FVec Ideal S128x128 .f32 :=
  transpose S128x128 [1, 0] (extractStridedSlice S128x128 ![0, o] Wg hs) transposes_S128x128_S128x128_1_0

/-- A bias vector as a `[1,128]` row. -/
def biasRow (b : FVec Ideal S128 .f32) : FVec Ideal S1x128 .f32 := shapeCast S1x128 b shapeCasts_S128_S1x128

/-! ## Region 2: table A -/

theorem V5_arg0 : V5 m ρ c main_arg0 = m ((c : Thread nD τ).loc main_arg0) :=
  (StableHlo.after_of_forall_not_mem (b := Proc.devRef .tc main_arg0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W5 m ρ c (Proc.devRef .tc main_arg0) = W4 m ρ c (Proc.devRef .tc main_arg0)).trans (W4_arg0 m ρ c)

set_option maxHeartbeats 2000000 in
/-- The mapped rows of table B, gathered by the wrapped destination ids and summed by the source ids. -/
theorem V5_v29 : V5 m ρ c main_v29 = aggA (W4 m ρ c (Proc.devRef .tc main_v3)) (m ((c : Thread nD τ).loc main_arg8)) (m ((c : Thread nD τ).loc main_arg9)) := by
  refine (?_ : _ = aggA (W4 m ρ c (Proc.devRef .tc main_v3)) (W4 m ρ c (Proc.devRef .tc main_arg8)) (W4 m ρ c (Proc.devRef .tc main_arg9))).trans (by rw [W4_arg8, W4_arg9])
  show StableHlo.after hostOps2 (W4 m ρ c) (Proc.devRef .tc main_v29) = _
  after_results
  rfl

set_option maxHeartbeats 2000000 in
/-- The number of edges per row of A, as a column. -/
theorem V5_v37 : V5 m ρ c main_v37 = cntA (m ((c : Thread nD τ).loc main_arg8)) := by
  refine (?_ : _ = cntA (W4 m ρ c (Proc.devRef .tc main_arg8))).trans (by rw [W4_arg8])
  show StableHlo.after hostOps2 (W4 m ρ c) (Proc.devRef .tc main_v37) = _
  after_results
  rfl

theorem V5_v34 : V5 m ρ c main_v34 = gateHalf 0 slices_S128x256_S128x128_0_0 (m ((c : Thread nD τ).loc main_arg6)) := by
  refine (?_ : _ = gateHalf 0 slices_S128x256_S128x128_0_0 (W4 m ρ c (Proc.devRef .tc main_arg6))).trans (by rw [W4_arg6])
  show StableHlo.after hostOps2 (W4 m ρ c) (Proc.devRef .tc main_v34) = _
  after_results
  rfl

theorem V5_v36 : V5 m ρ c main_v36 = gateHalf 128 slices_S128x256_S128x128_0_128 (m ((c : Thread nD τ).loc main_arg6)) := by
  refine (?_ : _ = gateHalf 128 slices_S128x256_S128x128_0_128 (W4 m ρ c (Proc.devRef .tc main_arg6))).trans (by rw [W4_arg6])
  show StableHlo.after hostOps2 (W4 m ρ c) (Proc.devRef .tc main_v36) = _
  after_results
  rfl

theorem V5_v38 : V5 m ρ c main_v38 = biasRow (m ((c : Thread nD τ).loc main_arg5)) := by
  refine (?_ : _ = biasRow (W4 m ρ c (Proc.devRef .tc main_arg5))).trans (by rw [W4_arg5])
  show StableHlo.after hostOps2 (W4 m ρ c) (Proc.devRef .tc main_v38) = _
  after_results
  rfl

theorem V5_v39 : V5 m ρ c main_v39 = biasRow (m ((c : Thread nD τ).loc main_arg7)) := by
  refine (?_ : _ = biasRow (W4 m ρ c (Proc.devRef .tc main_arg7))).trans (by rw [W4_arg7])
  show StableHlo.after hostOps2 (W4 m ρ c) (Proc.devRef .tc main_v39) = _
  after_results
  rfl

/-! ## Region 3: table B -/

theorem W5_arg1 : W5 m ρ c (Proc.devRef .tc main_arg1) = m ((c : Thread nD τ).loc main_arg1) :=
  (StableHlo.after_of_forall_not_mem (b := Proc.devRef .tc main_arg1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W5 m ρ c (Proc.devRef .tc main_arg1) = W4 m ρ c (Proc.devRef .tc main_arg1)).trans (W4_arg1 m ρ c)
theorem W5_arg3 : W5 m ρ c (Proc.devRef .tc main_arg3) = m ((c : Thread nD τ).loc main_arg3) :=
  (StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W5 m ρ c (Proc.devRef .tc main_arg3) = W4 m ρ c (Proc.devRef .tc main_arg3)).trans (W4_arg3 m ρ c)
theorem W5_arg7 : W5 m ρ c (Proc.devRef .tc main_arg7) = m ((c : Thread nD τ).loc main_arg7) :=
  (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W5 m ρ c (Proc.devRef .tc main_arg7) = W4 m ρ c (Proc.devRef .tc main_arg7)).trans (W4_arg7 m ρ c)

theorem V7_arg1 : V7 m ρ c main_arg1 = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg1) := W6_of_ne m ρ c main_arg1 (by decide)
    _ = m ((c : Thread nD τ).loc main_arg1) := W5_arg1 m ρ c

set_option maxHeartbeats 2000000 in
/-- The mapped rows of table A, gathered by the wrapped source ids and summed by the destination ids. -/
theorem W5_v15 : W5 m ρ c (Proc.devRef .tc main_v15) = aggB (W4 m ρ c (Proc.devRef .tc main_v1)) (m ((c : Thread nD τ).loc main_arg8)) (m ((c : Thread nD τ).loc main_arg9)) := by
  refine (?_ : _ = aggB (W4 m ρ c (Proc.devRef .tc main_v1)) (W4 m ρ c (Proc.devRef .tc main_arg8)) (W4 m ρ c (Proc.devRef .tc main_arg9))).trans (by rw [W4_arg8, W4_arg9])
  show StableHlo.after hostOps2 (W4 m ρ c) (Proc.devRef .tc main_v15) = _
  after_results
  rfl

theorem V7_v15 : V7 m ρ c main_v15 = W5 m ρ c (Proc.devRef .tc main_v15) :=
  calc W7 m ρ c (Proc.devRef .tc main_v15)
    _ = W6 m ρ c (Proc.devRef .tc main_v15) := StableHlo.after_of_forall_not_mem (b := Proc.devRef .tc main_v15) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v15) := W6_of_ne m ρ c main_v15 (by decide)

theorem W5_v18 : W5 m ρ c (Proc.devRef .tc main_v18) = cntVecB (m ((c : Thread nD τ).loc main_arg9)) := by
  refine (?_ : _ = cntVecB (W4 m ρ c (Proc.devRef .tc main_arg9))).trans (by rw [W4_arg9])
  show StableHlo.after hostOps2 (W4 m ρ c) (Proc.devRef .tc main_v18) = _
  after_results
  rfl

theorem W6_v18 : W6 m ρ c (Proc.devRef .tc main_v18) = cntVecB (m ((c : Thread nD τ).loc main_arg9)) :=
  (W6_of_ne m ρ c main_v18 (by decide)).trans (W5_v18 m ρ c)
theorem W6_arg3 : W6 m ρ c (Proc.devRef .tc main_arg3) = (m ((c : Thread nD τ).loc main_arg3)) := (W6_of_ne m ρ c main_arg3 (by decide)).trans (W5_arg3 m ρ c)
theorem W6_arg7 : W6 m ρ c (Proc.devRef .tc main_arg7) = (m ((c : Thread nD τ).loc main_arg7)) := (W6_of_ne m ρ c main_arg7 (by decide)).trans (W5_arg7 m ρ c)

/-- The number of edges per row of B, as a column. -/
theorem V7_v41 : V7 m ρ c main_v41 = cntB (m ((c : Thread nD τ).loc main_arg9)) := by
  refine (?_ : _ = shapeCast S50000x1 (W6 m ρ c (Proc.devRef .tc main_v18)) shapeCasts_S50000_S50000x1).trans (by rw [W6_v18]; rfl)
  show StableHlo.after hostOps3 (W6 m ρ c) (Proc.devRef .tc main_v41) = _
  after_results
  rfl

theorem V7_v34 : V7 m ρ c main_v34 = V5 m ρ c main_v34 :=
  calc W7 m ρ c (Proc.devRef .tc main_v34)
    _ = W6 m ρ c (Proc.devRef .tc main_v34) := StableHlo.after_of_forall_not_mem (b := Proc.devRef .tc main_v34) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V5 m ρ c main_v34 := (W6_arr m ρ c 3).trans (((dat2 (V5 m ρ) c).arrAt_in 3 rfl _).trans (A_eq2 (V5 m ρ) c 3))

theorem V7_v36 : V7 m ρ c main_v36 = V5 m ρ c main_v36 :=
  calc W7 m ρ c (Proc.devRef .tc main_v36)
    _ = W6 m ρ c (Proc.devRef .tc main_v36) := StableHlo.after_of_forall_not_mem (b := Proc.devRef .tc main_v36) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V5 m ρ c main_v36 := (W6_arr m ρ c 4).trans (((dat2 (V5 m ρ) c).arrAt_in 4 rfl _).trans (A_eq2 (V5 m ρ) c 4))

theorem V7_v42 : V7 m ρ c main_v42 = biasRow (m ((c : Thread nD τ).loc main_arg3)) := by
  refine (?_ : _ = biasRow (W6 m ρ c (Proc.devRef .tc main_arg3))).trans (by rw [W6_arg3])
  show StableHlo.after hostOps3 (W6 m ρ c) (Proc.devRef .tc main_v42) = _
  after_results
  rfl

theorem V7_v43 : V7 m ρ c main_v43 = biasRow (m ((c : Thread nD τ).loc main_arg7)) := by
  refine (?_ : _ = biasRow (W6 m ρ c (Proc.devRef .tc main_arg7))).trans (by rw [W6_arg7])
  show StableHlo.after hostOps3 (W6 m ρ c) (Proc.devRef .tc main_v43) = _
  after_results
  rfl

/-! ## The two results -/

/-- Table A blended: region 2's output array, untouched by what follows. -/
theorem W8_v40 : W8 m ρ c (Proc.devRef .tc main_v40) = (dat2 (V5 m ρ) c).arrAt 7 cfg2.N :=
  calc W8 m ρ c (Proc.devRef .tc main_v40)
    _ = W7 m ρ c (Proc.devRef .tc main_v40) := W8_of_ne m ρ c main_v40 (by decide)
    _ = W6 m ρ c (Proc.devRef .tc main_v40) := StableHlo.after_of_forall_not_mem (b := Proc.devRef .tc main_v40) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat2 (V5 m ρ) c).arrAt 7 cfg2.N := W6_arr m ρ c 7

/-- Table B blended: region 3's output array. -/
theorem W8_v44 : W8 m ρ c (Proc.devRef .tc main_v44) = (dat3 (V7 m ρ) c).arrAt 7 cfg3.N := W8_arr m ρ c 7

end Cert.KernelIdeal.Fold

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.TransformValue.lean ====
/-
  The two mapped tables of the kernel program, read as whole-array matrix products.

  The program's first two regions run the same body: load a block of rows of a table and the whole 128×128 matrix,
  multiply the block by the matrix on the matrix unit into a zero accumulator, and store the block of products.
  Region 0 maps the 200000-row table 8000 rows per grid point (25 points); region 1 maps the 50000-row table 10000
  rows per grid point (5 points). At the exact instance the roundings to the matrix unit's format are the identity,
  so each block's result is the block's product with the matrix, index by index; rows of a product are the product of
  the rows, so the block a grid point writes back is its rows of the whole product; the blocks cover every row; hence
  the result array after the region is the whole table times the matrix. Everything is stated at an arbitrary
  contents `V` of the buffers when the region is entered.
-/
import proofs.«125434_j47390669144622_2_alg».proof.Proof.LibPlainDot
import proofs.«125434_j47390669144622_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.TransformValue

open Cert.KernelIdeal Cert.KernelIdeal.Gen Cert.Lib.PlainDot

/-- The zero offsets of a whole-buffer access, as the constant function. -/
theorem zeroOffsets : (![0, 0] : Fin 2 → Nat) = fun _ => 0 := funext fun a => by fin_cases a <;> rfl

variable (V : (c : Dev nD) → (b : Ref sig .tc) → Buf (Elt Ideal) ((c : Thread nD τ).loc b))

/-! ## Region 0: the 200000-row table mapped through the matrix, 8000 rows per grid point -/

/-- The body's arithmetic on one block of 8000 rows is the block's product with the matrix: the roundings into the
    matrix unit's format and back are the identity on the extended reals, the cast to the same shape is the identity,
    and a product accumulated into zero is the product. -/
theorem rowBlock0_eq (x : Vec Ideal S8000x128 .f32) (w : Vec Ideal S128x128 .f32) :
    k0_pay1 (F := Ideal) x w = rowsByCols x w := by
  unfold k0_pay1
  simp only [shapeCast_self]
  exact matmul_zero_eq (φ₁ := .bf16) (φ₂ := .bf16) dot_S8000x128_S128x128_S8000x128_1_0_0_1_n_n rfl none x w

/-- The windows' block indices, decided over the 25 grid points: at point `t` the table's window and the result's
    window are on row block `t`, column block 0; the matrix's window is always on its one block. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `8000·t … 8000·t + 7999` of the whole product: the table's block at `t` is those
    rows of the table, the matrix's block is the matrix, and rows of a product are the product of the rows. -/
theorem flushed0_eq (c : Dev nD) (t : Fin cfg0.N) :
    (dat0 (F := Ideal) V c).flushed 2 t
      = ((cfg0.win 2).blk t).view.read (Elt Ideal) (rowsByCols (V c main_arg0) (V c main_v0)) := by
  show (cfg0.win 2).cut (grid0.coords t) ((dat0 (F := Ideal) V c).after 2 t) = _
  rw [after0_2]
  unfold out0_2
  rw [View.canon_unit_zero zeroOffsets]
  simp only [View.ld_unit_zero (S := S8000x128) zeroOffsets, View.ld_unit_zero (S := S128x128) zeroOffsets]
  rw [rowBlock0_eq]
  obtain ⟨e0, e1, e2, e3, e4, e5⟩ := blockIndex0 t
  funext j
  show rowsByCols (iblk0 V c 0 t) (iblk0 V c 1 t) j
    = rowsByCols (V c main_arg0) (V c main_v0) (((cfg0.win 2).blk t).view.emb j)
  refine rowsByCols_congr (M := 200000) (M' := 8000) (K := 128) (N := 128) (N' := 128) (V c main_arg0) (V c main_v0)
    (iblk0 V c 0 t) (iblk0 V c 1 t) j _ (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * k.val = k.val; omega
  · show V c main_v0 (((cfg0.win 1).blk t).view.emb (ix2 k (j 1)))
      = V c main_v0 (ix2 k ((((cfg0.win 2).blk t).view.emb j) 1))
    refine congrArg (V c main_v0) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result is in point `t`'s block iff each coordinate is in the block's range on its axis. -/
theorem mem_rowBlock0 (t : Fin cfg0.N) (i : S200000x128.Idx) :
    i ∈ ((cfg0.win 2).blk t).view.set ↔ ∀ a : Fin 2, win0_2.index t a * S8000x128.size a ≤ (i a).val
      ∧ (i a).val < win0_2.index t a * S8000x128.size a + S8000x128.size a := by
  show i ∈ ((View.whole main_v1).slice (win0_2.rect t)).set ↔ _
  rw [View.set_slice_whole, Rect.mem_set_unit]
  exact Iff.rfl

/-- Every row of the result is written back: row `r` is in the block of point `r / 8000`. -/
theorem rows_covered0 (i : S200000x128.Idx) :
    ∃ t : Fin cfg0.N, (cfg0.win 2).flush t = true ∧ i ∈ ((cfg0.win 2).blk t).view.set := by
  have hN : cfg0.N = 25 := N_0
  have hi0 : (i 0).val < 200000 := (i 0).isLt
  have hi1 : (i 1).val < 128 := (i 1).isLt
  let t : Fin cfg0.N := ⟨(i 0).val / 8000, by rw [hN]; omega⟩
  obtain ⟨e0, e1, e2, e3, e4, e5⟩ := blockIndex0 t
  have ht : t.val = (i 0).val / 8000 := rfl
  refine ⟨t, flush0_2 t, ?_⟩
  rw [mem_rowBlock0]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 128 ≤ (i 1).val ∧ (i 1).val < win0_2.index t (1 : Fin 2) * 128 + 128; omega

/-- The result array after the region's run is the whole table times the matrix, whatever the buffers held when
    the region was entered. -/
theorem table0 (c : Dev nD) :
    (dat0 (F := Ideal) V c).arrAt 2 cfg0.N = rowsByCols (V c main_arg0) (V c main_v0) :=
  (dat0 (F := Ideal) V c).arrAt_eq_of_cover 2 (rowsByCols (V c main_arg0) (V c main_v0))
    (fun t _ => flushed0_eq V c t) rows_covered0

/-! ## Region 1: the 50000-row table mapped through the matrix, 10000 rows per grid point -/

/-- The body's arithmetic on one block of 10000 rows is the block's product with the matrix: the roundings into the
    matrix unit's format and back are the identity on the extended reals, the cast to the same shape is the identity,
    and a product accumulated into zero is the product. -/
theorem rowBlock1_eq (x : Vec Ideal S10000x128 .f32) (w : Vec Ideal S128x128 .f32) :
    k1_pay1 (F := Ideal) x w = rowsByCols x w := by
  unfold k1_pay1
  simp only [shapeCast_self]
  exact matmul_zero_eq (φ₁ := .bf16) (φ₂ := .bf16) dot_S10000x128_S128x128_S10000x128_1_0_0_1_n_n rfl none x w

/-- The windows' block indices, decided over the 5 grid points: at point `t` the table's window and the result's
    window are on row block `t`, column block 0; the matrix's window is always on its one block. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is rows `10000·t … 10000·t + 9999` of the whole product: the table's block at `t` is those
    rows of the table, the matrix's block is the matrix, and rows of a product are the product of the rows. -/
theorem flushed1_eq (c : Dev nD) (t : Fin cfg1.N) :
    (dat1 (F := Ideal) V c).flushed 2 t
      = ((cfg1.win 2).blk t).view.read (Elt Ideal) (rowsByCols (V c main_arg1) (V c main_v2)) := by
  show (cfg1.win 2).cut (grid1.coords t) ((dat1 (F := Ideal) V c).after 2 t) = _
  rw [after1_2]
  unfold out1_2
  rw [View.canon_unit_zero zeroOffsets]
  simp only [View.ld_unit_zero (S := S10000x128) zeroOffsets, View.ld_unit_zero (S := S128x128) zeroOffsets]
  rw [rowBlock1_eq]
  obtain ⟨e0, e1, e2, e3, e4, e5⟩ := blockIndex1 t
  funext j
  show rowsByCols (iblk1 V c 0 t) (iblk1 V c 1 t) j
    = rowsByCols (V c main_arg1) (V c main_v2) (((cfg1.win 2).blk t).view.emb j)
  refine rowsByCols_congr (M := 50000) (M' := 10000) (K := 128) (N := 128) (N' := 128) (V c main_arg1) (V c main_v2)
    (iblk1 V c 0 t) (iblk1 V c 1 t) j _ (fun k => ?_) (fun k => ?_)
  · show V c main_arg1 (((cfg1.win 0).blk t).view.emb (ix2 (j 0) k))
      = V c main_arg1 (ix2 ((((cfg1.win 2).blk t).view.emb j) 0) k)
    refine congrArg (V c main_arg1) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  · show V c main_v2 (((cfg1.win 1).blk t).view.emb (ix2 k (j 1)))
      = V c main_v2 (ix2 k ((((cfg1.win 2).blk t).view.emb j) 1))
    refine congrArg (V c main_v2) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the result is in point `t`'s block iff each coordinate is in the block's range on its axis. -/
theorem mem_rowBlock1 (t : Fin cfg1.N) (i : S50000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v3).slice (win1_2.rect t)).set ↔ _
  rw [View.set_slice_whole, Rect.mem_set_unit]
  exact Iff.rfl

/-- Every row of the result is written back: row `r` is in the block of point `r / 10000`. -/
theorem rows_covered1 (i : S50000x128.Idx) :
    ∃ t : Fin cfg1.N, (cfg1.win 2).flush t = true ∧ i ∈ ((cfg1.win 2).blk t).view.set := by
  have hN : cfg1.N = 5 := N_1
  have hi0 : (i 0).val < 50000 := (i 0).isLt
  have hi1 : (i 1).val < 128 := (i 1).isLt
  let t : Fin cfg1.N := ⟨(i 0).val / 10000, by rw [hN]; omega⟩
  obtain ⟨e0, e1, e2, e3, e4, e5⟩ := blockIndex1 t
  have ht : t.val = (i 0).val / 10000 := rfl
  refine ⟨t, flush1_2 t, ?_⟩
  rw [mem_rowBlock1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the region's run is the whole table times the matrix, whatever the buffers held when
    the region was entered. -/
theorem table1 (c : Dev nD) :
    (dat1 (F := Ideal) V c).arrAt 2 cfg1.N = rowsByCols (V c main_arg1) (V c main_v2) :=
  (dat1 (F := Ideal) V c).arrAt_eq_of_cover 2 (rowsByCols (V c main_arg1) (V c main_v2))
    (fun t _ => flushed1_eq V c t) rows_covered1

end Cert.KernelIdeal.TransformValue

end
-- ==== Proof.Spec.lean ====
/-
  What the two programs compute, as functions of the argument arrays on the extended reals.

  Each of the two tables (rows `row : [n, 128]`) receives, from the other table (rows `other : [n', 128]`), one
  message per edge: edge `e` sends row `g e` of the other table through the relation's linear map `W` and adds the
  relation's bias `b`. The messages landing on row `p` (the edges in `L p`) are summed, the sum is divided by
  the number of such edges clamped below by one, and the row is blended with that mean through a sigmoid gate whose
  logits are `[row, mean] · Wgᵀ + bg`.

  The reference sums `msg + b` edge by edge (`refMean`); the kernel maps the whole other table through `W` once,
  sums the selected rows and adds `count · b` afterwards (`kerMean`). Both then apply the same blend.
  `fuseRows` is the blend as the kernel's last stage computes it on a block of rows: from the row block, the summed
  rows, the counts as a column, the two halves of the gate matrix already transposed, and the two biases as `[1,128]` rows.
-/
import Idealize.ShloMosaic.PureOps.Ideal
import Idealize.ShloMosaic.Lib.ValueIdx

noncomputable section

namespace Cert.Spec

open Idealize.ShloMosaic Idealize.ShloMosaic.ValueIdx

/-- The gated blend on a block of `a` rows, in the arrangement of the kernel's last stage: the mean message of row
    `p` is `(agg[p,k] + cnt[p]·brel[k]) / max(cnt[p], 1)`, the logits are `row · wr + mean · wm + bg`, and the result
    is `σ·row + (1 − σ)·mean`. -/
def fuseRows {a : ℕ} (row agg : (⟨2, ![a, 128]⟩ : Shape).Idx → EReal) (cnt : (⟨2, ![a, 1]⟩ : Shape).Idx → EReal)
    (wr wm : (⟨2, ![128, 128]⟩ : Shape).Idx → EReal) (brel bg : (⟨2, ![1, 128]⟩ : Shape).Idx → EReal) :
    (⟨2, ![a, 128]⟩ : Shape).Idx → EReal := fun j =>
  let mean : Fin 128 → EReal := fun k =>
    Ideal.div (agg (ix2 (j 0) k) + cnt (ix2 (j 0) 0) * brel (ix2 0 k)) (max (cnt (ix2 (j 0) 0)) 1)
  let z : EReal := (∑ k : Fin 128, row (ix2 (j 0) k) * wr (ix2 k (j 1))) + (∑ k : Fin 128, mean k * wm (ix2 k (j 1)))
    + bg (ix2 0 (j 1))
  Ideal.logistic z * row j + (1 - Ideal.logistic z) * mean (j 1)

/-- The other table's row `g e` through the relation's map: `∑ k, other[g e, k] · W[q, k]`. -/
def msg {n' E : ℕ} (other : (⟨2, ![n', 128]⟩ : Shape).Idx → EReal) (W : (⟨2, ![128, 128]⟩ : Shape).Idx → EReal)
    (g : Fin E → Fin n') (e : Fin E) (q : Fin 128) : EReal :=
  ∑ k : Fin 128, other (ix2 (g e) k) * W (ix2 q k)

/-- The number of edges landing on a row, as the sum of ones from zero. -/
def count {E : ℕ} (S : Finset (Fin E)) : EReal := (0 : EReal) + ∑ _e ∈ S, (1 : EReal)

/-- The mean message as the reference forms it: bias added edge by edge, then the sum divided by the clamped count. -/
def refMean {n n' E : ℕ} (other : (⟨2, ![n', 128]⟩ : Shape).Idx → EReal) (W : (⟨2, ![128, 128]⟩ : Shape).Idx → EReal)
    (b : (⟨1, ![128]⟩ : Shape).Idx → EReal) (g : Fin E → Fin n') (L : Fin n → Finset (Fin E)) :
    (⟨2, ![n, 128]⟩ : Shape).Idx → EReal := fun j =>
  Ideal.div ((0 : EReal) + ∑ e ∈ L (j 0), (msg other W g e (j 1) + b (ix1 (j 1)))) (max (count (L (j 0))) 1)

/-- The mean message as the kernel forms it: the mapped rows summed, `count · b` added once. -/
def kerMean {n n' E : ℕ} (other : (⟨2, ![n', 128]⟩ : Shape).Idx → EReal) (W : (⟨2, ![128, 128]⟩ : Shape).Idx → EReal)
    (b : (⟨1, ![128]⟩ : Shape).Idx → EReal) (g : Fin E → Fin n') (L : Fin n → Finset (Fin E)) :
    (⟨2, ![n, 128]⟩ : Shape).Idx → EReal := fun j =>
  Ideal.div (((0 : EReal) + ∑ e ∈ L (j 0), msg other W g e (j 1)) + count (L (j 0)) * b (ix1 (j 1)))
    (max (count (L (j 0))) 1)

/-- The blend of a table with a mean message through the gate `σ([row, mean] · Wgᵀ + bg)`, the contraction over the
    256 joined columns written as its two halves. -/
def blend {n : ℕ} (row mean : (⟨2, ![n, 128]⟩ : Shape).Idx → EReal) (Wg : (⟨2, ![128, 256]⟩ : Shape).Idx → EReal)
    (bg : (⟨1, ![128]⟩ : Shape).Idx → EReal) : (⟨2, ![n, 128]⟩ : Shape).Idx → EReal := fun j =>
  let z : EReal := (∑ k : Fin 128, row (ix2 (j 0) k) * Wg (ix2 (j 1) (⟨k.val, by omega⟩ : Fin 256)))
    + (∑ k : Fin 128, mean (ix2 (j 0) k) * Wg (ix2 (j 1) (⟨128 + k.val, by omega⟩ : Fin 256))) + bg (ix1 (j 1))
  Ideal.logistic z * row j + (1 - Ideal.logistic z) * mean j

end Cert.Spec

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.GateBlock.lean ====
/-
  The gated blend of one block of rows, read off the kernel's arithmetic.

  On a block of 5000 rows the kernel forms, from the rows `row`, the summed messages `agg`, the counts `cnt` as a
  column, the two halves `wr`, `wm` of the gate matrix and the two bias rows `brel`, `bg`:
  the mean message `mean[p,k] = (agg[p,k] + cnt[p]·brel[k]) / max(cnt[p], 1)`, the logits
  `z[p,q] = ∑ k, row[p,k]·wr[k,q] + ∑ k, mean[p,k]·wm[k,q] + bg[q]` (two plain matrix products into a zero
  accumulator; the narrowing of the operands is the identity on the extended reals), the gate `σ(z)`, and the result
  `σ(z)·row + (1 − σ(z))·mean`. That is `Cert.Spec.fuseRows` of the block, entry by entry (`blend_eq`).

  The blend is local to a row: entry `(p, q)` reads row `p` of `row`, `agg`, `cnt` and nothing else of them. So the
  blend of a block of rows, at local row `p'`, is the blend of the whole tables at the row the block's row `p'` sits at
  (`fuseRows_rows`).
-/
import proofs.«125434_j47390669144622_2_alg».proof.Proof.Spec
import proofs.«125434_j47390669144622_2_alg».proof.Proof.LibPlainDot
import proofs.«125434_j47390669144622_2_alg».proof.Proof.LibKeepdimsColumn
import proofs.«125434_j47390669144622_2_alg».proof.Proof.Gen.KernelIdeal.Skeleton
import Idealize.ShloMosaic.Lib.ValueLayout
import Idealize.ShloMosaic.Lib.ValueIdx
import Idealize.ShloMosaic.Lib.IdealHost
import Idealize.ShloMosaic.Lib.Pipeline.Value

noncomputable section

namespace Cert.KernelIdeal.GateBlock

open Idealize.ShloMosaic Idealize.ShloMosaic.ValueIdx Cert.KernelIdeal Cert.Lib.PlainDot

/-! ## The two products -/

/-- The products' dimension numbers are the plain ones: a `5000×128` left operand by a `128×128` right operand. -/
theorem dot_plain : dot_S5000x128_S128x128_S5000x128_1_0_0_1_n_n = DotDims.plain 5000 128 128 := rfl

/-- Each product, into the zero accumulator, is the plain product of its operands. -/
theorem matmul_zero {φ₁ φ₂ : FTy} (l : FVec Ideal S5000x128 φ₁) (r : FVec Ideal S128x128 φ₂) :
    matmul dot_S5000x128_S128x128_S5000x128_1_0_0_1_n_n none l r (constant (F := Ideal) S5000x128 .f32 0x00000000#32)
      = rowsByCols l r :=
  matmul_zero_eq _ dot_plain none l r

/-- The plain product at `(p, q)`, over coordinates. -/
theorem rowsByCols_at {M K N : ℕ} (l : (⟨2, ![M, K]⟩ : Shape).Idx → EReal) (r : (⟨2, ![K, N]⟩ : Shape).Idx → EReal)
    (p : Fin M) (q : Fin N) : rowsByCols l r (ix2 p q) = ∑ k : Fin K, l (ix2 p k) * r (ix2 k q) := rfl

/-- The gate at an index is the sigmoid of the logit there. -/
theorem logistic_apply {s : Shape} {φ : FTy} (x : FVec Ideal s φ) (i : s.Idx) : logistic x i = Ideal.logistic (x i) := rfl

/-! ## The blend at an entry -/

/-- The blend at `(p, q)`, over coordinates: the gate of the logit `z[p,q]` weighs `row[p,q]` against `mean[p,q]`. -/
theorem fuseRows_at {a : ℕ} (row agg : (⟨2, ![a, 128]⟩ : Shape).Idx → EReal) (cnt : (⟨2, ![a, 1]⟩ : Shape).Idx → EReal)
    (wr wm : (⟨2, ![128, 128]⟩ : Shape).Idx → EReal) (brel bg : (⟨2, ![1, 128]⟩ : Shape).Idx → EReal) (p : Fin a) (q : Fin 128) :
    Cert.Spec.fuseRows row agg cnt wr wm brel bg (ix2 p q)
      = Ideal.logistic ((∑ k : Fin 128, row (ix2 p k) * wr (ix2 k q))
            + (∑ k : Fin 128, Ideal.div (agg (ix2 p k) + cnt (ix2 p (0 : Fin 1)) * brel (ix2 (0 : Fin 1) k)) (max (cnt (ix2 p (0 : Fin 1))) 1) * wm (ix2 k q))
            + bg (ix2 (0 : Fin 1) q)) * row (ix2 p q)
        + (1 - Ideal.logistic ((∑ k : Fin 128, row (ix2 p k) * wr (ix2 k q))
            + (∑ k : Fin 128, Ideal.div (agg (ix2 p k) + cnt (ix2 p (0 : Fin 1)) * brel (ix2 (0 : Fin 1) k)) (max (cnt (ix2 p (0 : Fin 1))) 1) * wm (ix2 k q))
            + bg (ix2 (0 : Fin 1) q)))
          * Ideal.div (agg (ix2 p q) + cnt (ix2 p (0 : Fin 1)) * brel (ix2 (0 : Fin 1) q)) (max (cnt (ix2 p (0 : Fin 1))) 1) := rfl

/-- The kernel's arithmetic on a block, at `(p, q)`, is the blend of the block there. The arguments of the left side
    are in the order the body loads them (rows, sums, counts, message bias, the two gate halves, gate bias). -/
theorem blend_at (row agg : Vec Ideal S5000x128 .f32) (cnt : Vec Ideal S5000x1 .f32) (brel : Vec Ideal S1x128 .f32)
    (wr wm : Vec Ideal S128x128 .f32) (bg : Vec Ideal S1x128 .f32) (p : Fin 5000) (q : Fin 128) :
    Gen.k2_pay1 (F := Ideal) row agg cnt brel wr wm bg (ix2 p q)
      = Cert.Spec.fuseRows (a := 5000) row agg cnt wr wm brel bg (ix2 p q) := by
  unfold Gen.k2_pay1
  simp only [shapeCast_self]
  rw [matmul_zero, matmul_zero, fuseRows_at]
  simp only [addf_apply, mulf_apply, subf_apply, divf_apply, logistic_apply, maximumf_apply, broadcast_apply,
    rowsByCols_at, truncf_apply, Cert.Gcn.Lib.broadcastTo_a1_ab_apply, broadcastTo_1b_ab_apply,
    Ideal.ofBits_def, Ideal.ofBits_one_f32]

/-- The kernel's arithmetic on a block is the blend of the block. -/
theorem blend_eq (row agg : Vec Ideal S5000x128 .f32) (cnt : Vec Ideal S5000x1 .f32) (brel : Vec Ideal S1x128 .f32)
    (wr wm : Vec Ideal S128x128 .f32) (bg : Vec Ideal S1x128 .f32) :
    Gen.k2_pay1 (F := Ideal) row agg cnt brel wr wm bg = Cert.Spec.fuseRows (a := 5000) row agg cnt wr wm brel bg := by
  funext j
  obtain ⟨p, q, rfl⟩ : ∃ (p : Fin 5000) (q : Fin 128), j = ix2 p q := ⟨j 0, j 1, eq_ix2 j⟩
  exact blend_at row agg cnt brel wr wm bg p q

/-- The second table's kernel is the same arithmetic. -/
theorem blend_eq' (row agg : Vec Ideal S5000x128 .f32) (cnt : Vec Ideal S5000x1 .f32) (brel : Vec Ideal S1x128 .f32)
    (wr wm : Vec Ideal S128x128 .f32) (bg : Vec Ideal S1x128 .f32) :
    Gen.k3_pay1 (F := Ideal) row agg cnt brel wr wm bg = Cert.Spec.fuseRows (a := 5000) row agg cnt wr wm brel bg :=
  (show Gen.k3_pay1 (F := Ideal) row agg cnt brel wr wm bg = Gen.k2_pay1 (F := Ideal) row agg cnt brel wr wm bg from rfl).trans
    (blend_eq row agg cnt brel wr wm bg)

/-! ## The blend is local to a row -/

/-- Two blends agree at `(p', q)` and `(p, q)` when row `p'` of the first's tables is row `p` of the second's (the
    gate matrices and the biases shared). In particular the blend of a block of rows is those rows of the blend. -/
theorem fuseRows_rows {a n : ℕ} (row' agg' : (⟨2, ![a, 128]⟩ : Shape).Idx → EReal) (cnt' : (⟨2, ![a, 1]⟩ : Shape).Idx → EReal)
    (row agg : (⟨2, ![n, 128]⟩ : Shape).Idx → EReal) (cnt : (⟨2, ![n, 1]⟩ : Shape).Idx → EReal)
    (wr wm : (⟨2, ![128, 128]⟩ : Shape).Idx → EReal) (brel bg : (⟨2, ![1, 128]⟩ : Shape).Idx → EReal)
    (p' : Fin a) (p : Fin n) (q : Fin 128)
    (hrow : ∀ k : Fin 128, row' (ix2 p' k) = row (ix2 p k)) (hagg : ∀ k : Fin 128, agg' (ix2 p' k) = agg (ix2 p k))
    (hcnt : cnt' (ix2 p' (0 : Fin 1)) = cnt (ix2 p (0 : Fin 1))) :
    Cert.Spec.fuseRows row' agg' cnt' wr wm brel bg (ix2 p' q) = Cert.Spec.fuseRows row agg cnt wr wm brel bg (ix2 p q) := by
  rw [fuseRows_at, fuseRows_at]
  simp only [hrow, hagg, hcnt]

end Cert.KernelIdeal.GateBlock

end
-- ==== Proof.GateValue.lean ====
/-
  The gated blend of each table, from blocks of rows to the whole array.

  Each of the two tables is blended block of 5000 rows by block: point `t` of the grid reads rows `5000·t … 5000·t + 4999`
  of the table, of the summed messages and of the counts, reads the two gate halves and the two bias rows whole, and
  writes the blend of its block back to rows `5000·t … 5000·t + 4999` of the result. The blend is local to a row
  (`GateBlock.fuseRows_rows`), so what point `t` writes back is block `t` of the blend of the WHOLE tables; the blocks
  cover the result (row `r` lies in the block of point `r / 5000`), so the result array ends holding the blend of the
  whole tables. All of it at arbitrary contents `V` of the buffers when the region is entered.
-/
import proofs.«125434_j47390669144622_2_alg».proof.Proof.GateBlock
import proofs.«125434_j47390669144622_2_alg».proof.Proof.Gen.KernelIdeal.Frame
import Idealize.ShloMosaic.Lib.Pipeline.Value

noncomputable section

namespace Cert.KernelIdeal.GateValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-! ## The first table (200000 rows, 40 blocks) -/

/-- The index maps, decided over the grid: the three row-blocked inputs and the output are at block `(t, 0)`, the four
    small inputs at block `(0, 0)`. -/
theorem blockAt2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p'` of the table's block at point `t` is row `5000·t + p'` of the table. -/
theorem rowBlock2 (c : Dev nD) (t : Fin cfg2.N) (p' : Fin 5000) (k : Fin 128) (P : Fin 200000)
    (hP : P.val = 5000 * t.val + p'.val) :
    (iblk2 V c 0 t : Vec Ideal S5000x128 .f32) (ix2 p' k) = (V c main_arg0 : S200000x128.Idx → EReal) (ix2 P k) := by
  obtain ⟨e0, e1, -⟩ := blockAt2 t
  show V c main_arg0 (((cfg2.win 0).blk t).view.emb (ix2 p' k)) = V c main_arg0 (ix2 P k)
  refine congrArg (V c main_arg0) (funext fun a => Fin.ext ?_)
  match a with
  | ⟨0, _⟩ => show win2_0.index t (0 : Fin 2) * 5000 + 1 * p'.val = P.val; rw [e0, hP]; omega
  | ⟨1, _⟩ => show win2_0.index t (1 : Fin 2) * 128 + 1 * k.val = k.val; rw [e1]; omega

/-- The same for the summed messages … -/
theorem aggBlock2 (c : Dev nD) (t : Fin cfg2.N) (p' : Fin 5000) (k : Fin 128) (P : Fin 200000)
    (hP : P.val = 5000 * t.val + p'.val) :
    (iblk2 V c 1 t : Vec Ideal S5000x128 .f32) (ix2 p' k) = (V c main_v29 : S200000x128.Idx → EReal) (ix2 P k) := by
  obtain ⟨-, -, e0, e1, -⟩ := blockAt2 t
  show V c main_v29 (((cfg2.win 1).blk t).view.emb (ix2 p' k)) = V c main_v29 (ix2 P k)
  refine congrArg (V c main_v29) (funext fun a => Fin.ext ?_)
  match a with
  | ⟨0, _⟩ => show win2_1.index t (0 : Fin 2) * 5000 + 1 * p'.val = P.val; rw [e0, hP]; omega
  | ⟨1, _⟩ => show win2_1.index t (1 : Fin 2) * 128 + 1 * k.val = k.val; rw [e1]; omega

/-- … and for the column of counts. -/
theorem cntBlock2 (c : Dev nD) (t : Fin cfg2.N) (p' : Fin 5000) (P : Fin 200000)
    (hP : P.val = 5000 * t.val + p'.val) :
    (iblk2 V c 2 t : Vec Ideal S5000x1 .f32) (ix2 p' (0 : Fin 1)) = (V c main_v37 : S200000x1.Idx → EReal) (ix2 P (0 : Fin 1)) := by
  obtain ⟨-, -, -, -, e0, e1, -⟩ := blockAt2 t
  show V c main_v37 (((cfg2.win 2).blk t).view.emb (ix2 p' (0 : Fin 1))) = V c main_v37 (ix2 P (0 : Fin 1))
  refine congrArg (V c main_v37) (funext fun a => Fin.ext ?_)
  match a with
  | ⟨0, _⟩ => show win2_2.index t (0 : Fin 2) * 5000 + 1 * p'.val = P.val; rw [e0, hP]; omega
  | ⟨1, _⟩ => show win2_2.index t (1 : Fin 2) * 1 + 1 * 0 = 0; rw [e1]

/-- The four small inputs' one block is the whole array: the first gate half … -/
theorem wrBlock2 (c : Dev nD) (t : Fin cfg2.N) :
    (iblk2 V c 3 t : Vec Ideal S128x128 .f32) = (V c main_v34 : S128x128.Idx → EReal) := by
  obtain ⟨-, -, -, -, -, -, e0, e1, -⟩ := blockAt2 t
  funext x
  show V c main_v34 (((cfg2.win 3).blk t).view.emb x) = V c main_v34 x
  refine congrArg (V c main_v34) (funext fun a => Fin.ext ?_)
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

/-- … the second gate half … -/
theorem wmBlock2 (c : Dev nD) (t : Fin cfg2.N) :
    (iblk2 V c 4 t : Vec Ideal S128x128 .f32) = (V c main_v36 : S128x128.Idx → EReal) := by
  obtain ⟨-, -, -, -, -, -, -, -, e0, e1, -⟩ := blockAt2 t
  funext x
  show V c main_v36 (((cfg2.win 4).blk t).view.emb x) = V c main_v36 x
  refine congrArg (V c main_v36) (funext fun a => Fin.ext ?_)
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

/-- … the message bias row … -/
theorem brelBlock2 (c : Dev nD) (t : Fin cfg2.N) :
    (iblk2 V c 5 t : Vec Ideal S1x128 .f32) = (V c main_v38 : S1x128.Idx → EReal) := by
  obtain ⟨-, -, -, -, -, -, -, -, -, -, e0, e1, -⟩ := blockAt2 t
  funext x
  show V c main_v38 (((cfg2.win 5).blk t).view.emb x) = V c main_v38 x
  refine congrArg (V c main_v38) (funext fun a => Fin.ext ?_)
  match a with
  | ⟨0, _⟩ => show win2_5.index t (0 : Fin 2) * 1 + 1 * (x 0).val = (x 0).val; rw [e0]; omega
  | ⟨1, _⟩ => show win2_5.index t (1 : Fin 2) * 128 + 1 * (x 1).val = (x 1).val; rw [e1]; omega

/-- … and the gate bias row. -/
theorem bgBlock2 (c : Dev nD) (t : Fin cfg2.N) :
    (iblk2 V c 6 t : Vec Ideal S1x128 .f32) = (V c main_v39 : S1x128.Idx → EReal) := by
  obtain ⟨-, -, -, -, -, -, -, -, -, -, -, -, e0, e1, -⟩ := blockAt2 t
  funext x
  show V c main_v39 (((cfg2.win 6).blk t).view.emb x) = V c main_v39 x
  refine congrArg (V c main_v39) (funext fun a => Fin.ext ?_)
  match a with
  | ⟨0, _⟩ => show win2_6.index t (0 : Fin 2) * 1 + 1 * (x 0).val = (x 0).val; rw [e0]; omega
  | ⟨1, _⟩ => show win2_6.index t (1 : Fin 2) * 128 + 1 * (x 1).val = (x 1).val; rw [e1]; omega

/-- The blend of the whole table, of the arrays as the region finds them. -/
abbrev blend2 (c : Dev nD) : S200000x128.Idx → EReal :=
  Cert.Spec.fuseRows (a := 200000) (V c main_arg0) (V c main_v29) (V c main_v37) (V c main_v34) (V c main_v36) (V c main_v38) (V c main_v39)

/-- What point `t` writes back is block `t` of the blend of the whole table. -/
theorem written2 (c : Dev nD) (t : Fin cfg2.N) :
    (dat2 (F := Ideal) V c).flushed 7 t = ((cfg2.win 7).blk t).view.read (Elt Ideal) (blend2 V c) := by
  show (cfg2.win 7).cut (grid2.coords t) ((dat2 (F := Ideal) V c).after 7 t) = _
  rw [after2_7]
  unfold out2_7
  rw [View.canon_unit_zero origin]
  simp only [View.ld_unit_zero (S := S5000x128) origin, View.ld_unit_zero (S := S5000x1) origin,
    View.ld_unit_zero (S := S128x128) origin, View.ld_unit_zero (S := S1x128) origin]
  rw [GateBlock.blend_eq, wrBlock2 V c t, wmBlock2 V c t, brelBlock2 V c t, bgBlock2 V c t]
  have ht : t.val < 40 := lt_of_lt_of_eq t.isLt N_2
  obtain ⟨-, -, -, -, -, -, -, -, -, -, -, -, -, -, e0, e1⟩ := blockAt2 t
  funext y
  obtain ⟨p', q, rfl⟩ : ∃ (p' : Fin 5000) (q : Fin 128), y = ix2 p' q := ⟨y 0, y 1, eq_ix2 y⟩
  have hp : p'.val < 5000 := p'.isLt
  obtain ⟨P, hP⟩ : ∃ P : Fin 200000, P.val = 5000 * t.val + p'.val := ⟨⟨5000 * t.val + p'.val, by omega⟩, rfl⟩
  have hi : ((cfg2.win 7).blk t).view.emb (ix2 p' q) = (ix2 P q : S200000x128.Idx) := by
    funext a
    apply Fin.ext
    match a with
    | ⟨0, _⟩ => show win2_7.index t (0 : Fin 2) * 5000 + 1 * p'.val = P.val; rw [e0, hP]; omega
    | ⟨1, _⟩ => show win2_7.index t (1 : Fin 2) * 128 + 1 * q.val = q.val; rw [e1]; omega
  show Cert.Spec.fuseRows (a := 5000) (iblk2 V c 0 t) (iblk2 V c 1 t) (iblk2 V c 2 t) (V c main_v34) (V c main_v36) (V c main_v38) (V c main_v39) (ix2 p' q)
    = blend2 V c (((cfg2.win 7).blk t).view.emb (ix2 p' q))
  rw [hi]
  exact GateBlock.fuseRows_rows _ _ _ _ _ _ _ _ _ _ p' P q (fun k => rowBlock2 V c t p' k P hP)
    (fun k => aggBlock2 V c t p' k P hP) (cntBlock2 V c t p' P hP)

/-- An index of the result is in point `t`'s block iff each coordinate is in the block's range on its axis. -/
theorem mem_block2 (t : Fin cfg2.N) (i : S200000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v40).slice (win2_7.rect t)).set ↔ _
  rw [View.set_slice_whole, Rect.mem_set_unit]
  exact Iff.rfl

/-- Every row of the result is written: row `r` lies in the block of point `r / 5000`. -/
theorem covered2 (i : S200000x128.Idx) :
    ∃ t : Fin cfg2.N, (cfg2.win 7).flush t = true ∧ i ∈ ((cfg2.win 7).blk t).view.set := by
  have hi0 : (i 0).val < 200000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 40) N_2.symm⟩, rfl⟩
  obtain ⟨-, -, -, -, -, -, -, -, -, -, -, -, -, -, e0, e1⟩ := blockAt2 t
  refine ⟨t, flush2_7 t, ?_⟩
  rw [mem_block2]
  intro a
  match a with
  | ⟨0, _⟩ => show win2_7.index t (0 : Fin 2) * 5000 ≤ (i 0).val ∧ (i 0).val < win2_7.index t (0 : Fin 2) * 5000 + 5000; rw [e0, ht]; omega
  | ⟨1, _⟩ => show win2_7.index t (1 : Fin 2) * 128 ≤ (i 1).val ∧ (i 1).val < win2_7.index t (1 : Fin 2) * 128 + 128; rw [e1]; omega

/-- THE RESULT ARRAY after the region: the blend of the whole table. -/
theorem fused2 (c : Dev nD) :
    (dat2 (F := Ideal) V c).arrAt 7 cfg2.N
      = Cert.Spec.fuseRows (a := 200000) (V c main_arg0) (V c main_v29) (V c main_v37) (V c main_v34) (V c main_v36) (V c main_v38) (V c main_v39) :=
  (dat2 (F := Ideal) V c).arrAt_eq_of_cover 7 (blend2 V c) (fun t _ => written2 V c t) (covered2)

/-! ## The second table (50000 rows, 10 blocks) -/

/-- The index maps, decided over the grid: the three row-blocked inputs and the output are at block `(t, 0)`, the four
    small inputs at block `(0, 0)`. -/
theorem blockAt3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row `p'` of the table's block at point `t` is row `5000·t + p'` of the table. -/
theorem rowBlock3 (c : Dev nD) (t : Fin cfg3.N) (p' : Fin 5000) (k : Fin 128) (P : Fin 50000)
    (hP : P.val = 5000 * t.val + p'.val) :
    (iblk3 V c 0 t : Vec Ideal S5000x128 .f32) (ix2 p' k) = (V c main_arg1 : S50000x128.Idx → EReal) (ix2 P k) := by
  obtain ⟨e0, e1, -⟩ := blockAt3 t
  show V c main_arg1 (((cfg3.win 0).blk t).view.emb (ix2 p' k)) = V c main_arg1 (ix2 P k)
  refine congrArg (V c main_arg1) (funext fun a => Fin.ext ?_)
  match a with
  | ⟨0, _⟩ => show win3_0.index t (0 : Fin 2) * 5000 + 1 * p'.val = P.val; rw [e0, hP]; omega
  | ⟨1, _⟩ => show win3_0.index t (1 : Fin 2) * 128 + 1 * k.val = k.val; rw [e1]; omega

/-- The same for the summed messages … -/
theorem aggBlock3 (c : Dev nD) (t : Fin cfg3.N) (p' : Fin 5000) (k : Fin 128) (P : Fin 50000)
    (hP : P.val = 5000 * t.val + p'.val) :
    (iblk3 V c 1 t : Vec Ideal S5000x128 .f32) (ix2 p' k) = (V c main_v15 : S50000x128.Idx → EReal) (ix2 P k) := by
  obtain ⟨-, -, e0, e1, -⟩ := blockAt3 t
  show V c main_v15 (((cfg3.win 1).blk t).view.emb (ix2 p' k)) = V c main_v15 (ix2 P k)
  refine congrArg (V c main_v15) (funext fun a => Fin.ext ?_)
  match a with
  | ⟨0, _⟩ => show win3_1.index t (0 : Fin 2) * 5000 + 1 * p'.val = P.val; rw [e0, hP]; omega
  | ⟨1, _⟩ => show win3_1.index t (1 : Fin 2) * 128 + 1 * k.val = k.val; rw [e1]; omega

/-- … and for the column of counts. -/
theorem cntBlock3 (c : Dev nD) (t : Fin cfg3.N) (p' : Fin 5000) (P : Fin 50000)
    (hP : P.val = 5000 * t.val + p'.val) :
    (iblk3 V c 2 t : Vec Ideal S5000x1 .f32) (ix2 p' (0 : Fin 1)) = (V c main_v41 : S50000x1.Idx → EReal) (ix2 P (0 : Fin 1)) := by
  obtain ⟨-, -, -, -, e0, e1, -⟩ := blockAt3 t
  show V c main_v41 (((cfg3.win 2).blk t).view.emb (ix2 p' (0 : Fin 1))) = V c main_v41 (ix2 P (0 : Fin 1))
  refine congrArg (V c main_v41) (funext fun a => Fin.ext ?_)
  match a with
  | ⟨0, _⟩ => show win3_2.index t (0 : Fin 2) * 5000 + 1 * p'.val = P.val; rw [e0, hP]; omega
  | ⟨1, _⟩ => show win3_2.index t (1 : Fin 2) * 1 + 1 * 0 = 0; rw [e1]

/-- The four small inputs' one block is the whole array: the first gate half … -/
theorem wrBlock3 (c : Dev nD) (t : Fin cfg3.N) :
    (iblk3 V c 3 t : Vec Ideal S128x128 .f32) = (V c main_v34 : S128x128.Idx → EReal) := by
  obtain ⟨-, -, -, -, -, -, e0, e1, -⟩ := blockAt3 t
  funext x
  show V c main_v34 (((cfg3.win 3).blk t).view.emb x) = V c main_v34 x
  refine congrArg (V c main_v34) (funext fun a => Fin.ext ?_)
  match a with
  | ⟨0, _⟩ => show win3_3.index t (0 : Fin 2) * 128 + 1 * (x 0).val = (x 0).val; rw [e0]; omega
  | ⟨1, _⟩ => show win3_3.index t (1 : Fin 2) * 128 + 1 * (x 1).val = (x 1).val; rw [e1]; omega

/-- … the second gate half … -/
theorem wmBlock3 (c : Dev nD) (t : Fin cfg3.N) :
    (iblk3 V c 4 t : Vec Ideal S128x128 .f32) = (V c main_v36 : S128x128.Idx → EReal) := by
  obtain ⟨-, -, -, -, -, -, -, -, e0, e1, -⟩ := blockAt3 t
  funext x
  show V c main_v36 (((cfg3.win 4).blk t).view.emb x) = V c main_v36 x
  refine congrArg (V c main_v36) (funext fun a => Fin.ext ?_)
  match a with
  | ⟨0, _⟩ => show win3_4.index t (0 : Fin 2) * 128 + 1 * (x 0).val = (x 0).val; rw [e0]; omega
  | ⟨1, _⟩ => show win3_4.index t (1 : Fin 2) * 128 + 1 * (x 1).val = (x 1).val; rw [e1]; omega

/-- … the message bias row … -/
theorem brelBlock3 (c : Dev nD) (t : Fin cfg3.N) :
    (iblk3 V c 5 t : Vec Ideal S1x128 .f32) = (V c main_v42 : S1x128.Idx → EReal) := by
  obtain ⟨-, -, -, -, -, -, -, -, -, -, e0, e1, -⟩ := blockAt3 t
  funext x
  show V c main_v42 (((cfg3.win 5).blk t).view.emb x) = V c main_v42 x
  refine congrArg (V c main_v42) (funext fun a => Fin.ext ?_)
  match a with
  | ⟨0, _⟩ => show win3_5.index t (0 : Fin 2) * 1 + 1 * (x 0).val = (x 0).val; rw [e0]; omega
  | ⟨1, _⟩ => show win3_5.index t (1 : Fin 2) * 128 + 1 * (x 1).val = (x 1).val; rw [e1]; omega

/-- … and the gate bias row. -/
theorem bgBlock3 (c : Dev nD) (t : Fin cfg3.N) :
    (iblk3 V c 6 t : Vec Ideal S1x128 .f32) = (V c main_v43 : S1x128.Idx → EReal) := by
  obtain ⟨-, -, -, -, -, -, -, -, -, -, -, -, e0, e1, -⟩ := blockAt3 t
  funext x
  show V c main_v43 (((cfg3.win 6).blk t).view.emb x) = V c main_v43 x
  refine congrArg (V c main_v43) (funext fun a => Fin.ext ?_)
  match a with
  | ⟨0, _⟩ => show win3_6.index t (0 : Fin 2) * 1 + 1 * (x 0).val = (x 0).val; rw [e0]; omega
  | ⟨1, _⟩ => show win3_6.index t (1 : Fin 2) * 128 + 1 * (x 1).val = (x 1).val; rw [e1]; omega

/-- The blend of the whole table, of the arrays as the region finds them. -/
abbrev blend3 (c : Dev nD) : S50000x128.Idx → EReal :=
  Cert.Spec.fuseRows (a := 50000) (V c main_arg1) (V c main_v15) (V c main_v41) (V c main_v34) (V c main_v36) (V c main_v42) (V c main_v43)

/-- What point `t` writes back is block `t` of the blend of the whole table. -/
theorem written3 (c : Dev nD) (t : Fin cfg3.N) :
    (dat3 (F := Ideal) V c).flushed 7 t = ((cfg3.win 7).blk t).view.read (Elt Ideal) (blend3 V c) := by
  show (cfg3.win 7).cut (grid3.coords t) ((dat3 (F := Ideal) V c).after 7 t) = _
  rw [after3_7]
  unfold out3_7
  rw [View.canon_unit_zero origin]
  simp only [View.ld_unit_zero (S := S5000x128) origin, View.ld_unit_zero (S := S5000x1) origin,
    View.ld_unit_zero (S := S128x128) origin, View.ld_unit_zero (S := S1x128) origin]
  rw [GateBlock.blend_eq', wrBlock3 V c t, wmBlock3 V c t, brelBlock3 V c t, bgBlock3 V c t]
  have ht : t.val < 10 := lt_of_lt_of_eq t.isLt N_3
  obtain ⟨-, -, -, -, -, -, -, -, -, -, -, -, -, -, e0, e1⟩ := blockAt3 t
  funext y
  obtain ⟨p', q, rfl⟩ : ∃ (p' : Fin 5000) (q : Fin 128), y = ix2 p' q := ⟨y 0, y 1, eq_ix2 y⟩
  have hp : p'.val < 5000 := p'.isLt
  obtain ⟨P, hP⟩ : ∃ P : Fin 50000, P.val = 5000 * t.val + p'.val := ⟨⟨5000 * t.val + p'.val, by omega⟩, rfl⟩
  have hi : ((cfg3.win 7).blk t).view.emb (ix2 p' q) = (ix2 P q : S50000x128.Idx) := by
    funext a
    apply Fin.ext
    match a with
    | ⟨0, _⟩ => show win3_7.index t (0 : Fin 2) * 5000 + 1 * p'.val = P.val; rw [e0, hP]; omega
    | ⟨1, _⟩ => show win3_7.index t (1 : Fin 2) * 128 + 1 * q.val = q.val; rw [e1]; omega
  show Cert.Spec.fuseRows (a := 5000) (iblk3 V c 0 t) (iblk3 V c 1 t) (iblk3 V c 2 t) (V c main_v34) (V c main_v36) (V c main_v42) (V c main_v43) (ix2 p' q)
    = blend3 V c (((cfg3.win 7).blk t).view.emb (ix2 p' q))
  rw [hi]
  exact GateBlock.fuseRows_rows _ _ _ _ _ _ _ _ _ _ p' P q (fun k => rowBlock3 V c t p' k P hP)
    (fun k => aggBlock3 V c t p' k P hP) (cntBlock3 V c t p' P hP)

/-- An index of the result is in point `t`'s block iff each coordinate is in the block's range on its axis. -/
theorem mem_block3 (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v44).slice (win3_7.rect t)).set ↔ _
  rw [View.set_slice_whole, Rect.mem_set_unit]
  exact Iff.rfl

/-- Every row of the result is written: row `r` lies in the block of point `r / 5000`. -/
theorem covered3 (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega : (i 0).val / 5000 < 10) N_3.symm⟩, rfl⟩
  obtain ⟨-, -, -, -, -, -, -, -, -, -, -, -, -, -, e0, e1⟩ := blockAt3 t
  refine ⟨t, flush3_7 t, ?_⟩
  rw [mem_block3]
  intro a
  match a with
  | ⟨0, _⟩ => show win3_7.index t (0 : Fin 2) * 5000 ≤ (i 0).val ∧ (i 0).val < win3_7.index t (0 : Fin 2) * 5000 + 5000; rw [e0, ht]; omega
  | ⟨1, _⟩ => show win3_7.index t (1 : Fin 2) * 128 ≤ (i 1).val ∧ (i 1).val < win3_7.index t (1 : Fin 2) * 128 + 128; rw [e1]; omega

/-- THE RESULT ARRAY after the region: the blend of the whole table. -/
theorem fused3 (c : Dev nD) :
    (dat3 (F := Ideal) V c).arrAt 7 cfg3.N
      = Cert.Spec.fuseRows (a := 50000) (V c main_arg1) (V c main_v15) (V c main_v41) (V c main_v34) (V c main_v36) (V c main_v42) (V c main_v43) :=
  (dat3 (F := Ideal) V c).arrAt_eq_of_cover 7 (blend3 V c) (fun t _ => written3 V c t) (covered3)

end Cert.KernelIdeal.GateValue

end
-- ==== Proof.LibRowGather.lean ====
/-
  Gathering rows of a table. For a table `x : [N, C]` and a column of start indices `idx : [R, 1]`, the
  gather with one collapsed row axis and one offset axis of full width `C` returns, at result entry
  `(r, k)`, the table's entry `(ρ, k)`, where the row `ρ` is the start index `idx[r, 0]` read as a signed
  integer and clamped into `[0, N − 1]`. The column coordinate passes through unchanged: the offset axis has
  start `0` and the slice is the whole row.
-/
import Idealize.ShloMosaic.Lib.ValueIdx

noncomputable section

namespace Cert.Lib.RowGather

open Idealize.ShloMosaic Idealize.ShloMosaic.ValueIdx

variable {α : Type}

/-- The dimension numbers of a row gather: result axis 1 is the offset axis, table axis 0 is collapsed and is
    the axis the start index addresses, the index vector lies along axis 1 of the start indices, and a slice is
    one row of `C` entries. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start-index word selects in a table of `N` rows: the word as a signed integer, negative values
    sent to `0`, clamped to the last row. -/
def rowOf (N : Nat) (hN : 0 < N) {w : Nat} (b : BitVec w) : Fin N := ⟨min b.toInt.toNat (N - 1), by omega⟩

/-- A row gather read at `(r, k)`: the table at the selected row and the same column. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k) = x (ix2 (rowOf N hN (idx (ix2 r 0))) k) := by
  -- the two coordinates of the table index the gather reads, one axis at a time
  have hb : ∀ a, (rowDims N R C wf).batchCoord (ix2 r k) a = 0 := fun a =>
    GatherDims.batchCoord_eq_zero _ _ _ List.not_mem_nil
  have h0 : (rowDims N R C wf).start (ix2 r k) idx (0 : Fin 2) + (rowDims N R C wf).batchCoord (ix2 r k) (0 : Fin 2)
      + (rowDims N R C wf).offCoord (ix2 r k) (0 : Fin 2) = (rowOf N hN (idx (ix2 r 0))).val := by
    rw [hb, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  have h1 : (rowDims N R C wf).start (ix2 r k) idx (1 : Fin 2) + (rowDims N R C wf).batchCoord (ix2 r k) (1 : Fin 2)
      + (rowDims N R C wf).offCoord (ix2 r k) (1 : Fin 2) = k.val := by
    have ne10 : ¬((1 : Fin 2) = 0) := by decide
    have hn : (1 : Fin 2) ∉ (rowDims N R C wf).startIndexMap := fun h =>
      ne10 (List.mem_singleton.mp h)
    have hk : (1 : Fin 2) ∈ (rowDims N R C wf).sKept :=
      (GatherDims.mem_sKept _ _).mpr ⟨fun h => ne10 (List.mem_singleton.mp h), List.not_mem_nil⟩
    rw [hb]
    unfold GatherDims.start
    rw [dif_neg hn]
    unfold GatherDims.offCoord
    rw [dif_pos hk]
    simp only [Nat.zero_add, Nat.add_zero]
    rfl
  unfold Host.gather
  congr 1
  funext a
  refine Fin.ext ?_
  match a with
  | ⟨0, _⟩ => exact h0
  | ⟨1, _⟩ => exact h1

end Cert.Lib.RowGather

end
-- ==== Proof.LibRowScatter.lean ====
/-
  Adding rows into a table at a column of start indices. For a table `x : [N, C]`, start indices `idx : [R, 1]` and
  updates `u : [R, C]`, the scatter with one inserted row axis and one window axis of width `C` sends update entry
  `(r, k)` to table entry `(ρ, k)`, where the row `ρ` is the start index `idx[r, 0]` read as a signed integer and NOT
  clamped: when that integer is outside `[0, N − 1]` the update is dropped. The column coordinate passes through.
  So if update `(r, k)` lands on table entry `(p, q)`, then `idx[r, 0]` is `p` and `k = q`.
-/
import Idealize.ShloMosaic.Lib.ValueIdx

noncomputable section

namespace Cert.Lib.RowScatter

open Idealize.ShloMosaic Idealize.ShloMosaic.ValueIdx

/-- The dimension numbers of a row scatter: update axis 1 is the window axis, table axis 0 is inserted and is the
    axis the start index addresses, the index vector lies along axis 1 of the start indices. -/
abbrev rowScat (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window starts, on the row axis, at the start index of the update's row, read signed. -/
theorem start_row {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) :
    (rowScat N R C wf).start (ix2 r k) idx (0 : Fin 2) = (idx (ix2 r 0)).toInt := by
  unfold ScatterDims.start
  rw [dif_pos (show (0 : Fin 2) ∈ (rowScat N R C wf).scatterDimsToOperandDims from List.mem_singleton.mpr rfl)]
  have hsi : (rowScat N R C wf).siIdx (ix2 r k) ⟨List.idxOf (0 : Fin 2) (rowScat N R C wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- On the column axis the window starts at `0`. -/
theorem start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScat N R C wf).start j idx (1 : Fin 2) = 0 := by
  unfold ScatterDims.start
  rw [dif_neg (fun h => absurd (List.mem_singleton.mp h) (show ¬((1 : Fin 2) = 0) by decide))]

/-- The window coordinate is `0` on the (inserted) row axis … -/
theorem window_row {N R C : Nat} (wf : ScatterDims.WF ⟨2, ![N, C]⟩ ⟨2, ![R, 1]⟩ ⟨2, ![R, C]⟩ [1] [0] [0] 1)
    (j : (⟨2, ![R, C]⟩ : Shape).Idx) : (rowScat N R C wf).window j (0 : Fin 2) = 0 := by
  unfold ScatterDims.window
  rw [dif_neg (show ¬((0 : Fin 2) ∈ (rowScat N R C wf).sKept) from fun h => by have := (List.mem_filter.mp h).2; simp at this)]

/-- … and the update's column on the column axis. -/
theorem window_col {N R C : Nat} (wf : ScatterDims.WF ⟨2, ![N, C]⟩ ⟨2, ![R, 1]⟩ ⟨2, ![R, C]⟩ [1] [0] [0] 1)
    (r : Fin R) (k : Fin C) : (rowScat N R C wf).window (ix2 r k) (1 : Fin 2) = k.val := by
  unfold ScatterDims.window
  rw [dif_pos (show (1 : Fin 2) ∈ (rowScat N R C wf).sKept from List.mem_filter.mpr ⟨List.mem_finRange _, by simp⟩)]
  rfl

/-- If update entry `(r, k)` lands on table entry `(p, q)`, its row's start index is `p` and `k = q`. -/
theorem lands {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (q : Fin C)
    (h : (rowScat N R C wf).resultIdx? (ix2 r k) idx = some (ix2 p q)) :
    (idx (ix2 r 0)).toInt = (p.val : Int) ∧ k = q := by
  unfold ScatterDims.resultIdx? at h
  split at h
  · rename_i hb
    have h' := Option.some.inj h
    have e0 : ((rowScat N R C wf).start (ix2 r k) idx (0 : Fin 2) + ((rowScat N R C wf).window (ix2 r k) (0 : Fin 2) : Int)).toNat = p.val :=
      congrArg Fin.val (congrFun h' (0 : Fin 2))
    have e1 : ((rowScat N R C wf).start (ix2 r k) idx (1 : Fin 2) + ((rowScat N R C wf).window (ix2 r k) (1 : Fin 2) : Int)).toNat = q.val :=
      congrArg Fin.val (congrFun h' (1 : Fin 2))
    have b0 := (hb (0 : Fin 2)).1
    rw [start_row, window_row] at e0 b0
    rw [start_col, window_col] at e1
    refine ⟨by omega, Fin.ext (by omega)⟩
  · exact absurd h (by simp)

end Cert.Lib.RowScatter

end
-- ==== Proof.LibRowScatterSum.lean ====
/-
  Adding rows into a table at a column of start indices, read at an index as a sum over rows.

  For a table `z : [N, C]`, start indices `idx : [R, 1]` and updates `u : [R, C]`, the accumulating scatter with one
  inserted row axis and one window axis of width `C` gives, at table entry `(p, q)` on the extended reals,
  `z[p, q] + ∑ r ∈ landing idx p, u[r, q]`, where `landing idx p` is the set of update rows whose start index, read
  as a signed integer, is exactly `p` (an out-of-range start drops its row). The set of rows does not depend on the
  width `C`: scatters of different widths by the same column of start indices add over the same rows.
-/
import Idealize.ShloMosaic.Lib.ValueIdx
import Idealize.ShloMosaic.PureOps.Ideal
import proofs.«125434_j47390669144622_2_alg».proof.Proof.LibRowScatter

noncomputable section

namespace Cert.Lib.RowScatterSum

open Idealize.ShloMosaic Idealize.ShloMosaic.ValueIdx Cert.Lib.RowScatter

/-- The update rows that land on table row `p`: those whose start index, read signed, is `p`. -/
def landing {R w : Nat} (N : Nat) (idx : IVec ⟨2, ![R, 1]⟩ w) (p : Fin N) : Finset (Fin R) :=
  Finset.univ.filter (fun r => (idx (ix2 r 0)).toInt = (p.val : Int))

/-- Update entry `(r, k)` lands on table entry `(p, q)` exactly when row `r`'s start index is `p` and `k = q`. -/
theorem lands_iff {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (q : Fin C) :
    (rowScat N R C wf).resultIdx? (ix2 r k) idx = some (ix2 p q) ↔ ((idx (ix2 r 0)).toInt = (p.val : Int) ∧ k = q) := by
  constructor
  · exact lands wf idx r k p q
  · rintro ⟨h0, rfl⟩
    have hp := p.isLt
    have hk := k.isLt
    have hb : ∀ a : Fin 2, 0 ≤ (rowScat N R C wf).start (ix2 r k) idx a + ((rowScat N R C wf).window (ix2 r k) a : Int)
        ∧ (rowScat N R C wf).start (ix2 r k) idx a + ((rowScat N R C wf).window (ix2 r k) a : Int) < ((⟨2, ![N, C]⟩ : Shape).size a : Int) := by
      refine Fin.forall_fin_two.mpr ⟨?_, ?_⟩
      · rw [start_row, window_row]
        show 0 ≤ (idx (ix2 r 0)).toInt + ((0 : Nat) : Int) ∧ (idx (ix2 r 0)).toInt + ((0 : Nat) : Int) < (N : Int)
        omega
      · rw [start_col, window_col]
        show 0 ≤ (0 : Int) + (k.val : Int) ∧ (0 : Int) + (k.val : Int) < (C : Int)
        omega
    unfold ScatterDims.resultIdx?
    rw [dif_pos hb]
    refine congrArg some (funext fun a => Fin.ext ?_)
    revert a
    refine Fin.forall_fin_two.mpr ⟨?_, ?_⟩
    · show ((rowScat N R C wf).start (ix2 r k) idx (0 : Fin 2) + ((rowScat N R C wf).window (ix2 r k) (0 : Fin 2) : Int)).toNat = p.val
      rw [start_row, window_row]
      omega
    · show ((rowScat N R C wf).start (ix2 r k) idx (1 : Fin 2) + ((rowScat N R C wf).window (ix2 r k) (1 : Fin 2) : Int)).toNat = k.val
      rw [start_col, window_col]
      omega

/-- The accumulating row scatter at `(p, q)`: the table's entry plus the updates' column `q` summed over the rows
    that land on `p`. -/
theorem scatterAdd_rows_apply {N R C w : Nat} {φ : FTy}
    (d : ScatterDims ⟨2, ![N, C]⟩ ⟨2, ![R, 1]⟩ ⟨2, ![R, C]⟩)
    (wf : ScatterDims.WF ⟨2, ![N, C]⟩ ⟨2, ![R, 1]⟩ ⟨2, ![R, C]⟩ [1] [0] [0] 1) (hd : d = rowScat N R C wf)
    (z : FVec Ideal ⟨2, ![N, C]⟩ φ) (idx : IVec ⟨2, ![R, 1]⟩ w) (u : FVec Ideal ⟨2, ![R, C]⟩ φ) (p : Fin N) (q : Fin C) :
    Host.scatterAdd d z idx u (ix2 p q) = (z (ix2 p q) : EReal) + ∑ r ∈ landing N idx p, (u (ix2 r q) : EReal) := by
  subst hd
  show Ideal.hostScatterAdd (rowScat N R C wf) z idx u (ix2 p q) = _
  unfold Ideal.hostScatterAdd landing
  congr 1
  rw [Finset.sum_filter, sum_idx2, Finset.sum_filter]
  refine Finset.sum_congr rfl fun r _ => ?_
  by_cases h : (idx (ix2 r 0)).toInt = (p.val : Int)
  · rw [if_pos h]
    rw [Finset.sum_eq_single q]
    · rw [if_pos ((lands_iff wf idx r q p q).mpr ⟨h, rfl⟩)]
    · intro k _ hk
      rw [if_neg (fun hl => hk ((lands_iff wf idx r k p q).mp hl).2)]
    · intro hq
      exact absurd (Finset.mem_univ q) hq
  · rw [if_neg h]
    refine Finset.sum_eq_zero fun k _ => ?_
    rw [if_neg (fun hl => h ((lands_iff wf idx r k p q).mp hl).1)]

end Cert.Lib.RowScatterSum

end
-- ==== Proof.LibVecScatterSum.lean ====
/-
  Adding entries into a vector at a column of start indices, read at an index as a sum over update rows.

  For a vector `z : [N]`, start indices `idx : [R, 1]` and updates `u : [R]`, the accumulating scatter whose one operand
  axis is inserted (no window axis) sends update `r` to entry `idx[r, 0]` read as a signed integer and NOT clamped: an
  out-of-range start drops the update. So on the extended reals the result at `p` is `z[p] + ∑ r ∈ landing idx p, u[r]`,
  over the same set of rows as a scatter of whole rows by the same column.
-/
import Idealize.ShloMosaic.Lib.ValueIdx
import Idealize.ShloMosaic.PureOps.Ideal
import proofs.«125434_j47390669144622_2_alg».proof.Proof.LibRowScatterSum

noncomputable section

namespace Cert.Lib.VecScatterSum

open Idealize.ShloMosaic Idealize.ShloMosaic.ValueIdx Cert.Lib.RowScatterSum

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of scattering entries into a vector: no window axis, the operand's one axis inserted and
    addressed by the start index, the index vector along axis 1 of the start indices. -/
abbrev vecScat (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window starts at the start index of the update, read signed. -/
theorem start_eq {N R w : Nat} (wf : ScatterDims.WF ⟨1, ![N]⟩ ⟨2, ![R, 1]⟩ ⟨1, ![R]⟩ [] [0] [0] 1)
    (idx : IVec ⟨2, ![R, 1]⟩ w) (r : Fin R) :
    (vecScat N R wf).start (ix1 r) idx (0 : Fin 1) = (idx (ix2 r 0)).toInt := by
  unfold ScatterDims.start
  rw [dif_pos (show (0 : Fin 1) ∈ (vecScat N R wf).scatterDimsToOperandDims from List.mem_singleton.mpr rfl)]
  have hsi : (vecScat N R wf).siIdx (ix1 r) ⟨List.idxOf (0 : Fin 1) (vecScat N R wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- There is no window: its coordinate is `0`. -/
theorem window_eq {N R : Nat} (wf : ScatterDims.WF ⟨1, ![N]⟩ ⟨2, ![R, 1]⟩ ⟨1, ![R]⟩ [] [0] [0] 1)
    (j : (⟨1, ![R]⟩ : Shape).Idx) : (vecScat N R wf).window j (0 : Fin 1) = 0 := by
  unfold ScatterDims.window
  rw [dif_neg (show ¬((0 : Fin 1) ∈ (vecScat N R wf).sKept) from fun h => by have := (List.mem_filter.mp h).2; simp at this)]

/-- Update `r` lands on entry `p` exactly when its start index is `p`. -/
theorem lands_iff {N R w : Nat} (wf : ScatterDims.WF ⟨1, ![N]⟩ ⟨2, ![R, 1]⟩ ⟨1, ![R]⟩ [] [0] [0] 1)
    (idx : IVec ⟨2, ![R, 1]⟩ w) (r : Fin R) (p : Fin N) :
    (vecScat N R wf).resultIdx? (ix1 r) idx = some (ix1 p) ↔ (idx (ix2 r 0)).toInt = (p.val : Int) := by
  constructor
  · intro h
    unfold ScatterDims.resultIdx? at h
    split at h
    · rename_i hb
      have h' := Option.some.inj h
      have e0 : ((vecScat N R wf).start (ix1 r) idx (0 : Fin 1) + ((vecScat N R wf).window (ix1 r) (0 : Fin 1) : Int)).toNat = p.val :=
        congrArg Fin.val (congrFun h' (0 : Fin 1))
      have b0 := (hb (0 : Fin 1)).1
      rw [start_eq, window_eq] at e0 b0
      omega
    · exact absurd h (by simp)
  · intro h0
    have hp := p.isLt
    have hb : ∀ a : Fin 1, 0 ≤ (vecScat N R wf).start (ix1 r) idx a + ((vecScat N R wf).window (ix1 r) a : Int)
        ∧ (vecScat N R wf).start (ix1 r) idx a + ((vecScat N R wf).window (ix1 r) a : Int) < ((⟨1, ![N]⟩ : Shape).size a : Int) := by
      intro a
      obtain rfl : a = 0 := Subsingleton.elim _ _
      rw [start_eq, window_eq]
      show 0 ≤ (idx (ix2 r 0)).toInt + ((0 : Nat) : Int) ∧ (idx (ix2 r 0)).toInt + ((0 : Nat) : Int) < (N : Int)
      omega
    unfold ScatterDims.resultIdx?
    rw [dif_pos hb]
    refine congrArg some (funext fun a => Fin.ext ?_)
    obtain rfl : a = 0 := Subsingleton.elim _ _
    show ((vecScat N R wf).start (ix1 r) idx (0 : Fin 1) + ((vecScat N R wf).window (ix1 r) (0 : Fin 1) : Int)).toNat = p.val
    rw [start_eq, window_eq]
    omega

/-- The accumulating scatter into a vector at `p`: the vector's entry plus the updates summed over the rows that land
    on `p`. -/
theorem scatterAdd_vec_apply {N R w : Nat} {φ : FTy}
    (d : ScatterDims ⟨1, ![N]⟩ ⟨2, ![R, 1]⟩ ⟨1, ![R]⟩)
    (wf : ScatterDims.WF ⟨1, ![N]⟩ ⟨2, ![R, 1]⟩ ⟨1, ![R]⟩ [] [0] [0] 1) (hd : d = vecScat N R wf)
    (z : FVec Ideal ⟨1, ![N]⟩ φ) (idx : IVec ⟨2, ![R, 1]⟩ w) (u : FVec Ideal ⟨1, ![R]⟩ φ) (p : Fin N) :
    Host.scatterAdd d z idx u (ix1 p) = (z (ix1 p) : EReal) + ∑ r ∈ landing N idx p, (u (ix1 r) : EReal) := by
  subst hd
  show Ideal.hostScatterAdd (vecScat N R wf) z idx u (ix1 p) = _
  unfold Ideal.hostScatterAdd landing
  congr 1
  rw [Finset.sum_filter, sum_idx1, Finset.sum_filter]
  refine Finset.sum_congr rfl fun r _ => ?_
  by_cases h : (idx (ix2 r 0)).toInt = (p.val : Int)
  · rw [if_pos h, if_pos ((lands_iff wf idx r p).mpr h)]
  · rw [if_neg h, if_neg (fun hl => h ((lands_iff wf idx r p).mp hl))]

end Cert.Lib.VecScatterSum

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.HostTerms.lean ====
/-
  The arrays the kernel program's host operations build for its last stage, read at an index.

  Between the two mapping regions and the two blending regions the program gathers rows of a mapped table
  `other · Wᵀ` by a column of start indices, sums them into a zero table by a second column (a scatter-add), counts the
  edges by scattering ones, cuts the gate matrix in its two halves and transposes each, and recasts vectors as
  `[a,1]` columns or `[1,a]` rows. Each lemma here reads one of these arrays at an index, over shapes left general:
  the summed rows are the sums of messages over the edges landing on the row, the count is the sum of ones, a
  transposed half of the gate matrix at `(k, q)` is the matrix at `(q, k)` or `(q, 128 + k)`.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«125434_j47390669144622_2_alg».proof.Proof.Spec
import proofs.«125434_j47390669144622_2_alg».proof.Proof.LibRowGather
import proofs.«125434_j47390669144622_2_alg».proof.Proof.LibPlainDot
import proofs.«125434_j47390669144622_2_alg».proof.Proof.LibRowScatterSum
import proofs.«125434_j47390669144622_2_alg».proof.Proof.LibVecScatterSum
import proofs.«125434_j47390669144622_2_alg».proof.Proof.LibKeepdimsColumn
import proofs.«125434_j47390669144622_2_alg».proof.Proof.LibBcastChain

noncomputable section

namespace Cert.HostTerms

open Idealize.ShloMosaic Idealize.ShloMosaic.ValueIdx Cert.Spec
open Cert.Lib.RowGather Cert.Lib.RowScatter Cert.Lib.RowScatterSum Cert.Lib.VecScatterSum Cert.Lib.PlainDot Cert.Lib.BcastChain

/-- A zero scalar spread over any shape is zero everywhere. -/
theorem zeros_apply {t : Shape} (dims : Fin 0 → Fin t.rank) (h : (⟨0, ![]⟩ : Shape).BroadcastsInDim t dims) (j : t.Idx) :
    broadcastInDim t dims h (constant (F := Ideal) ⟨0, ![]⟩ .f32 0x00000000#32) j = (0 : EReal) := by
  rw [overAll_apply, constant_apply]; exact Ideal.ofBits_zero_f32

/-- A one scalar spread over any shape is one everywhere. -/
theorem ones_apply {t : Shape} (dims : Fin 0 → Fin t.rank) (h : (⟨0, ![]⟩ : Shape).BroadcastsInDim t dims) (j : t.Idx) :
    broadcastInDim t dims h (constant (F := Ideal) ⟨0, ![]⟩ .f32 0x3F800000#32) j = (1 : EReal) := by
  rw [overAll_apply, constant_apply]; exact Ideal.ofBits_one_f32

/-- The mapped table `other · Wᵀ` at row `r`, column `k`: `∑ j, other[r, j] · W[k, j]`. -/
theorem mapped_apply {n' : ℕ} (other : (⟨2, ![n', 128]⟩ : Shape).Idx → EReal) (W : (⟨2, ![128, 128]⟩ : Shape).Idx → EReal)
    (ht : (⟨2, ![128, 128]⟩ : Shape).Transposes [1, 0] ⟨2, ![128, 128]⟩) (r : Fin n') (k : Fin 128) :
    rowsByCols other (transpose ⟨2, ![128, 128]⟩ [1, 0] W ht) (ix2 r k) = ∑ j : Fin 128, other (ix2 r j) * W (ix2 k j) := by
  show ∑ j : Fin 128, other (ix2 r j) * transpose ⟨2, ![128, 128]⟩ [1, 0] W ht (ix2 j k) = _
  exact Finset.sum_congr rfl fun j _ => by rw [transpose_ix2_apply]

/-- The summed rows: rows of the mapped table gathered by the column `gcol`, recast to f32, and scatter-added into a
    zero table by the column `scol`, read at `(p, k)`: zero plus the messages of the edges landing on `p`. -/
theorem agg_apply {n n' E : ℕ} (hn' : 0 < n') (dims0 : Fin 0 → Fin 2)
    (sd : ScatterDims ⟨2, ![n, 128]⟩ ⟨2, ![E, 1]⟩ ⟨2, ![E, 128]⟩)
    (swf : ScatterDims.WF ⟨2, ![n, 128]⟩ ⟨2, ![E, 1]⟩ ⟨2, ![E, 128]⟩ [1] [0] [0] 1) (hsd : sd = rowScat n E 128 swf)
    (gd : GatherDims ⟨2, ![n', 128]⟩ ⟨2, ![E, 1]⟩ ⟨2, ![E, 128]⟩)
    (gwf : GatherDims.WF ⟨2, ![n', 128]⟩ ⟨2, ![E, 1]⟩ ⟨2, ![E, 128]⟩ [1] [0] [] [0] [] 1 ![1, 128]) (hgd : gd = rowDims n' E 128 gwf)
    (hb0 : (⟨0, ![]⟩ : Shape).BroadcastsInDim ⟨2, ![n, 128]⟩ dims0)
    (ht : (⟨2, ![128, 128]⟩ : Shape).Transposes [1, 0] ⟨2, ![128, 128]⟩)
    (hlt : FTy.bf16.bits < FTy.f32.bits)
    (other : (⟨2, ![n', 128]⟩ : Shape).Idx → EReal) (W : (⟨2, ![128, 128]⟩ : Shape).Idx → EReal)
    (scol gcol : IVec ⟨2, ![E, 1]⟩ 32) (p : Fin n) (k : Fin 128) :
    Host.scatterAdd sd (broadcastInDim ⟨2, ![n, 128]⟩ dims0 hb0 (constant (F := Ideal) ⟨0, ![]⟩ .f32 0x00000000#32)) scol
        (extf .f32 (Host.gather gd (show FVec Ideal ⟨2, ![n', 128]⟩ .bf16 from
          rowsByCols other (transpose ⟨2, ![128, 128]⟩ [1, 0] W ht)) gcol) hlt) (ix2 p k)
      = (0 : EReal) + ∑ e ∈ landing n scol p, msg other W (fun e => rowOf n' hn' (gcol (ix2 e 0))) e k := by
  subst hsd hgd
  rw [scatterAdd_rows_apply _ swf rfl, zeros_apply]
  refine congrArg _ (Finset.sum_congr rfl fun e _ => ?_)
  rw [extf_apply, gather_rows_apply hn' gwf]
  exact mapped_apply other W ht _ k

/-- The counts: ones scatter-added into a zero vector by the column `scol` and recast as a column, read at `(p, 0)`:
    the number of edges landing on `p`, as a sum of ones from zero. -/
theorem cnt_apply {n E : ℕ} (dimsz : Fin 0 → Fin 1) (dimso : Fin 0 → Fin 1)
    (sd : ScatterDims ⟨1, ![n]⟩ ⟨2, ![E, 1]⟩ ⟨1, ![E]⟩)
    (swf : ScatterDims.WF ⟨1, ![n]⟩ ⟨2, ![E, 1]⟩ ⟨1, ![E]⟩ [] [0] [0] 1) (hsd : sd = vecScat n E swf)
    (hbz : (⟨0, ![]⟩ : Shape).BroadcastsInDim ⟨1, ![n]⟩ dimsz) (hbo : (⟨0, ![]⟩ : Shape).BroadcastsInDim ⟨1, ![E]⟩ dimso)
    (hc : (⟨1, ![n]⟩ : Shape).ShapeCasts ⟨2, ![n, 1]⟩) (scol : IVec ⟨2, ![E, 1]⟩ 32) (p : Fin n) :
    shapeCast ⟨2, ![n, 1]⟩ (Host.scatterAdd sd (broadcastInDim ⟨1, ![n]⟩ dimsz hbz (constant (F := Ideal) ⟨0, ![]⟩ .f32 0x00000000#32)) scol
        (broadcastInDim ⟨1, ![E]⟩ dimso hbo (constant (F := Ideal) ⟨0, ![]⟩ .f32 0x3F800000#32))) hc (ix2 p (0 : Fin 1))
      = Spec.count (landing n scol p) := by
  subst hsd
  rw [Cert.Gcn.Lib.shapeCast_a_a1_apply, scatterAdd_vec_apply _ swf rfl, zeros_apply]
  unfold Spec.count
  exact congrArg _ (Finset.sum_congr rfl fun e _ => ones_apply _ _ _)

/-- The first half of the gate matrix, transposed, at `(k, q)` is the matrix at `(q, k)`. -/
theorem gateLeft_apply (Wg : (⟨2, ![128, 256]⟩ : Shape).Idx → EReal)
    (hs : (⟨2, ![128, 256]⟩ : Shape).Slices ![0, 0] ⟨2, ![128, 128]⟩)
    (ht : (⟨2, ![128, 128]⟩ : Shape).Transposes [1, 0] ⟨2, ![128, 128]⟩) (k q : Fin 128) :
    transpose ⟨2, ![128, 128]⟩ [1, 0] (extractStridedSlice ⟨2, ![128, 128]⟩ ![0, 0] Wg hs) ht (ix2 k q)
      = Wg (ix2 q (⟨k.val, by omega⟩ : Fin 256)) := by
  rw [transpose_ix2_apply, slice2_axis1_apply 0 Wg hs q k (⟨k.val, by omega⟩ : Fin 256) (by simp)]

/-- The second half of the gate matrix, transposed, at `(k, q)` is the matrix at `(q, 128 + k)`. -/
theorem gateRight_apply (Wg : (⟨2, ![128, 256]⟩ : Shape).Idx → EReal)
    (hs : (⟨2, ![128, 256]⟩ : Shape).Slices ![0, 128] ⟨2, ![128, 128]⟩)
    (ht : (⟨2, ![128, 128]⟩ : Shape).Transposes [1, 0] ⟨2, ![128, 128]⟩) (k q : Fin 128) :
    transpose ⟨2, ![128, 128]⟩ [1, 0] (extractStridedSlice ⟨2, ![128, 128]⟩ ![0, 128] Wg hs) ht (ix2 k q)
      = Wg (ix2 q (⟨128 + k.val, by omega⟩ : Fin 256)) := by
  rw [transpose_ix2_apply, slice2_axis1_apply 128 Wg hs q k (⟨128 + k.val, by omega⟩ : Fin 256) rfl]

/-- A bias vector recast as a `[1, 128]` row, read at `(0, k)`. -/
theorem biasRow_apply (b : (⟨1, ![128]⟩ : Shape).Idx → EReal) (hc : (⟨1, ![128]⟩ : Shape).ShapeCasts ⟨2, ![1, 128]⟩) (k : Fin 128) :
    shapeCast ⟨2, ![1, 128]⟩ b hc (ix2 (0 : Fin 1) k) = b (ix1 k) :=
  shapeCast_a_1a_apply b hc 0 k

end Cert.HostTerms

end
-- ==== Proof.FuseForm.lean ====
/-
  The kernel's last stage, read through what its operands hold, is the blend of the table with the kernel's mean.

  The last stage receives the summed rows `agg`, the counts as a column `cnt`, the two halves of the gate matrix
  transposed (`wr[k,q] = Wg[q,k]`, `wm[k,q] = Wg[q,128+k]`) and the two biases as `[1,128]` rows. When `agg[p,k]` is the sum
  of the mapped rows of the edges landing on `p` and `cnt[p]` their number, the stage's mean
  `(agg + cnt·brel) / max(cnt, 1)` is `kerMean` and its result is `blend row kerMean`: the same sums, term by term.
-/
import proofs.«125434_j47390669144622_2_alg».proof.Proof.Spec

noncomputable section

namespace Cert.FuseForm

open Idealize.ShloMosaic Idealize.ShloMosaic.ValueIdx Cert.Spec

theorem fuseRows_eq_blend {n n' E : ℕ} (row : (⟨2, ![n, 128]⟩ : Shape).Idx → EReal)
    (other : (⟨2, ![n', 128]⟩ : Shape).Idx → EReal) (W : (⟨2, ![128, 128]⟩ : Shape).Idx → EReal)
    (b : (⟨1, ![128]⟩ : Shape).Idx → EReal) (Wg : (⟨2, ![128, 256]⟩ : Shape).Idx → EReal)
    (bgv : (⟨1, ![128]⟩ : Shape).Idx → EReal) (g : Fin E → Fin n') (L : Fin n → Finset (Fin E))
    (agg : (⟨2, ![n, 128]⟩ : Shape).Idx → EReal) (cnt : (⟨2, ![n, 1]⟩ : Shape).Idx → EReal)
    (wr wm : (⟨2, ![128, 128]⟩ : Shape).Idx → EReal) (brel bg : (⟨2, ![1, 128]⟩ : Shape).Idx → EReal)
    (hagg : ∀ (p : Fin n) (k : Fin 128), agg (ix2 p k) = (0 : EReal) + ∑ e ∈ L p, msg other W g e k)
    (hcnt : ∀ p : Fin n, cnt (ix2 p 0) = count (L p))
    (hwr : ∀ k q : Fin 128, wr (ix2 k q) = Wg (ix2 q (⟨k.val, by omega⟩ : Fin 256)))
    (hwm : ∀ k q : Fin 128, wm (ix2 k q) = Wg (ix2 q (⟨128 + k.val, by omega⟩ : Fin 256)))
    (hbrel : ∀ k : Fin 128, brel (ix2 0 k) = b (ix1 k)) (hbg : ∀ q : Fin 128, bg (ix2 0 q) = bgv (ix1 q)) :
    fuseRows row agg cnt wr wm brel bg = blend row (kerMean other W b g L) Wg bgv := by
  funext j
  obtain ⟨p, q, rfl⟩ : ∃ (p : Fin n) (q : Fin 128), j = ix2 p q := ⟨j 0, j 1, eq_ix2 j⟩
  have hmean : ∀ k : Fin 128,
      Ideal.div (agg (ix2 p k) + cnt (ix2 p 0) * brel (ix2 0 k)) (max (cnt (ix2 p 0)) 1) = kerMean other W b g L (ix2 p k) := fun k => by
    rw [hagg, hcnt, hbrel]; rfl
  show Ideal.logistic ((∑ k : Fin 128, row (ix2 p k) * wr (ix2 k q)) + (∑ k : Fin 128, Ideal.div (agg (ix2 p k) + cnt (ix2 p 0) * brel (ix2 0 k)) (max (cnt (ix2 p 0)) 1) * wm (ix2 k q)) + bg (ix2 0 q)) * row (ix2 p q) + (1 - Ideal.logistic ((∑ k : Fin 128, row (ix2 p k) * wr (ix2 k q)) + (∑ k : Fin 128, Ideal.div (agg (ix2 p k) + cnt (ix2 p 0) * brel (ix2 0 k)) (max (cnt (ix2 p 0)) 1) * wm (ix2 k q)) + bg (ix2 0 q))) * Ideal.div (agg (ix2 p q) + cnt (ix2 p 0) * brel (ix2 0 q)) (max (cnt (ix2 p 0)) 1)
    = Ideal.logistic ((∑ k : Fin 128, row (ix2 p k) * Wg (ix2 q (⟨k.val, by omega⟩ : Fin 256))) + (∑ k : Fin 128, kerMean other W b g L (ix2 p k) * Wg (ix2 q (⟨128 + k.val, by omega⟩ : Fin 256))) + bgv (ix1 q)) * row (ix2 p q) + (1 - Ideal.logistic ((∑ k : Fin 128, row (ix2 p k) * Wg (ix2 q (⟨k.val, by omega⟩ : Fin 256))) + (∑ k : Fin 128, kerMean other W b g L (ix2 p k) * Wg (ix2 q (⟨128 + k.val, by omega⟩ : Fin 256))) + bgv (ix1 q))) * kerMean other W b g L (ix2 p q)
  simp only [hmean, hwr, hwm, hbg]

end Cert.FuseForm

end
-- ==== Proof.KernelValue.lean ====
/-
  The idealized kernel program's two results as functions of its arguments.

  Table A's result is the blend of table A with the kernel's mean message from table B: the rows of `B · W_revᵀ`
  selected by the (wrapped) destination ids, summed over the edges whose source id is the row, plus the edge count times
  the reverse bias, over the count clamped below by one. Table B's result is the same with the tables, the relation and
  the two id vectors exchanged. The proof joins four things: the fold through the program (which buffer holds which
  term), the two mapping regions' arrays (a table times a transposed matrix), the two blending regions' arrays (the
  blend of their operands, row block by row block), and the host terms read at an index.
-/
import proofs.«125434_j47390669144622_2_alg».proof.Proof.Fold2
import proofs.«125434_j47390669144622_2_alg».proof.Proof.TransformValue
import proofs.«125434_j47390669144622_2_alg».proof.Proof.GateValue
import proofs.«125434_j47390669144622_2_alg».proof.Proof.HostTerms
import proofs.«125434_j47390669144622_2_alg».proof.Proof.FuseForm

set_option maxRecDepth 16384

noncomputable section

namespace Cert.KernelIdeal.KernelValue

open Cert.KernelIdeal Cert.KernelIdeal.Gen Cert.KernelIdeal.Fold
open Idealize.ShloMosaic Idealize.ShloMosaic.TcCoe Idealize.SL.Sem Idealize.ShloMosaic.ValueIdx
open Cert.Lib.RowGather Cert.Lib.RowScatterSum Cert.Lib.PlainDot

variable (m : (ℓ : Loc nD τ sig) → Buf (Elt Ideal) ℓ) (ρ : Dev nD → PrngReg) (c : Dev nD)

/-- Table B mapped through the reverse relation: `B · W_revᵀ`. -/
theorem mappedB : W4 m ρ c (Proc.devRef .tc main_v3)
    = rowsByCols (m ((c : Thread nD τ).loc main_arg1)) (transpose S128x128 [1, 0] (m ((c : Thread nD τ).loc main_arg4)) transposes_S128x128_S128x128_1_0) := by
  rw [W4_v3, TransformValue.table1, V3_arg1, V3_v2]

/-- Table A mapped through the forward relation: `A · W_fwdᵀ`. -/
theorem mappedA : W4 m ρ c (Proc.devRef .tc main_v1)
    = rowsByCols (m ((c : Thread nD τ).loc main_arg0)) (transpose S128x128 [1, 0] (m ((c : Thread nD τ).loc main_arg2)) transposes_S128x128_S128x128_1_0) := by
  rw [W4_v1, TransformValue.table0, V1_arg0, V1_v0]

/-- Table A's result: the blend of A with the kernel's mean message from B. -/
theorem result_a : W8 m ρ c (Proc.devRef .tc main_v40)
    = Cert.Spec.blend (m ((c : Thread nD τ).loc main_arg0))
        (Cert.Spec.kerMean (m ((c : Thread nD τ).loc main_arg1)) (m ((c : Thread nD τ).loc main_arg4)) (m ((c : Thread nD τ).loc main_arg5))
          (fun e => rowOf 50000 (by norm_num) (wrapCol 50000#32 (m ((c : Thread nD τ).loc main_arg9)) (ix2 e 0)))
          (landing 200000 (rawCol (m ((c : Thread nD τ).loc main_arg8))))) (m ((c : Thread nD τ).loc main_arg6)) (m ((c : Thread nD τ).loc main_arg7)) := by
  refine (W8_v40 m ρ c).trans ((GateValue.fused2 (V5 m ρ) c).trans ?_)
  rw [V5_arg0, V5_v29, V5_v37, V5_v34, V5_v36, V5_v38, V5_v39, mappedB]
  exact Cert.FuseForm.fuseRows_eq_blend _ _ _ _ _ _ _ _ _ _ _ _ _ _
    (fun p k => Cert.HostTerms.agg_apply (by norm_num) _ _ scatter_S200000x128_S1000000x1_S1000000x128_1_0_0_1.wf rfl
      _ gather_S50000x128_S1000000x1_S1000000x128_1_0_n_n_0_1_1128.wf rfl _ _ _ _ _ _ _ p k)
    (fun p => Cert.HostTerms.cnt_apply _ _ _ scatter_S200000_S1000000x1_S1000000_n_0_0_1.wf rfl _ _ _ _ p)
    (fun k q => Cert.HostTerms.gateLeft_apply _ _ _ k q) (fun k q => Cert.HostTerms.gateRight_apply _ _ _ k q)
    (fun k => Cert.HostTerms.biasRow_apply _ _ k) (fun q => Cert.HostTerms.biasRow_apply _ _ q)

/-- Table B's result: the blend of B with the kernel's mean message from A. -/
theorem result_b : W8 m ρ c (Proc.devRef .tc main_v44)
    = Cert.Spec.blend (m ((c : Thread nD τ).loc main_arg1))
        (Cert.Spec.kerMean (m ((c : Thread nD τ).loc main_arg0)) (m ((c : Thread nD τ).loc main_arg2)) (m ((c : Thread nD τ).loc main_arg3))
          (fun e => rowOf 200000 (by norm_num) (wrapCol 200000#32 (m ((c : Thread nD τ).loc main_arg8)) (ix2 e 0)))
          (landing 50000 (rawCol (m ((c : Thread nD τ).loc main_arg9))))) (m ((c : Thread nD τ).loc main_arg6)) (m ((c : Thread nD τ).loc main_arg7)) := by
  refine (W8_v44 m ρ c).trans ((GateValue.fused3 (V7 m ρ) c).trans ?_)
  rw [V7_arg1, V7_v15, W5_v15, V7_v41, V7_v34, V7_v36, V5_v34, V5_v36, V7_v42, V7_v43, mappedA]
  exact Cert.FuseForm.fuseRows_eq_blend _ _ _ _ _ _ _ _ _ _ _ _ _ _
    (fun p k => Cert.HostTerms.agg_apply (by norm_num) _ _ scatter_S50000x128_S1000000x1_S1000000x128_1_0_0_1.wf rfl
      _ gather_S200000x128_S1000000x1_S1000000x128_1_0_n_n_0_1_1128.wf rfl _ _ _ _ _ _ _ p k)
    (fun p => Cert.HostTerms.cnt_apply _ _ _ scatter_S50000_S1000000x1_S1000000_n_0_0_1.wf rfl _ _ _ _ p)
    (fun k q => Cert.HostTerms.gateLeft_apply _ _ _ k q) (fun k q => Cert.HostTerms.gateRight_apply _ _ _ k q)
    (fun k => Cert.HostTerms.biasRow_apply _ _ k) (fun q => Cert.HostTerms.biasRow_apply _ _ q)

end Cert.KernelIdeal.KernelValue

end
-- ==== Proof.RefValue.lean ====
/-
  The reference program's two results, as the specification's functions of the argument arrays on the extended reals.

  Per table the reference gathers, for every edge, one row of the other table (the edge's endpoint, a negative id
  wrapped), maps it through the relation's matrix and adds the relation's bias; adds these rows into a zero table at
  the edge's other endpoint; counts the edges per row by adding ones at the same endpoints; divides the sums by the
  counts clamped below by one; and blends the table's own rows with that mean through a sigmoid gate whose logits
  contract the 256 joined columns `[row, mean]` with the gate matrix.

  Read at an entry `(p, q)`: a gathered row is the other table at the selected row; a scatter-add is the zero it
  starts from plus the sum over the edges whose endpoint is exactly `p`; the two scatters of one table go through
  the same column of endpoints, so the sum of messages and the count range over the same set of edges. The joined
  array is the row below column 128 and the mean from column 128 on, so the contraction over 256 columns is the sum
  of its two halves of 128. The gate `1 / (1 + exp (−z))` is the logistic function by definition.
-/
import proofs.«125434_j47390669144622_2_alg».proof.Proof.Gen.ReferenceIdeal.Read
import proofs.«125434_j47390669144622_2_alg».proof.Proof.Spec
import proofs.«125434_j47390669144622_2_alg».proof.Proof.LibRowGather
import proofs.«125434_j47390669144622_2_alg».proof.Proof.LibRowScatterSum
import proofs.«125434_j47390669144622_2_alg».proof.Proof.LibVecScatterSum
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx
open Cert.Lib.RowGather Cert.Lib.RowScatterSum Cert.Lib.VecScatterSum

/-! ## Table A: the rows of the first table, messages from the second -/

/-- The gathered rows: entry `(r, k)` is the other table's entry at the row edge `r` selects. -/
theorem gathered_a (x1 : (⟨S50000x128, .f32⟩ : BufTy).Contents (Elt Ideal)) (x9 : (⟨S1000000, .i32⟩ : BufTy).Contents (Elt Ideal))
    (r : Fin 1000000) (k : Fin 128) :
    Read.val_main_v25 (F := Ideal) x1 x9 (ix2 r k)
      = x1 (ix2 (rowOf 50000 (by norm_num) (Read.val_main_v24 (F := Ideal) x9 (ix2 r 0))) k) := by
  unfold Read.val_main_v25
  exact gather_rows_apply (by norm_num) Facts₀.gather_S50000x128_S1000000x1_S1000000x128_1_0_n_n_0_1_1128_wf x1
    (Read.val_main_v24 (F := Ideal) x9) r k

theorem lidx27 (r : Fin 1000000) (q k : Fin 128) : Read.lidx_main_v27 (ix2 r q) k = ix2 r k :=
  funext fun a => Fin.ext (by match a with | ⟨0, _⟩ => rfl | ⟨1, _⟩ => rfl)

theorem ridx27 (r : Fin 1000000) (q k : Fin 128) : Read.idx_main_v26 (Read.ridx_main_v27 (ix2 r q) k) = ix2 q k :=
  funext fun a => Fin.ext (by match a with | ⟨0, _⟩ => rfl | ⟨1, _⟩ => rfl)

theorem bidx29 (r : Fin 1000000) (q : Fin 128) : Read.idx_main_v28 (Read.idx_main_v29 (ix2 r q)) = ix1 q :=
  funext fun a => Fin.ext (by match a with | ⟨0, _⟩ => rfl)

/-- One edge's message with the bias, at `(r, q)`. -/
theorem msg_a (x1 : (⟨S50000x128, .f32⟩ : BufTy).Contents (Elt Ideal)) (x4 : (⟨S128x128, .f32⟩ : BufTy).Contents (Elt Ideal))
    (x5 : (⟨S128, .f32⟩ : BufTy).Contents (Elt Ideal)) (x9 : (⟨S1000000, .i32⟩ : BufTy).Contents (Elt Ideal))
    (r : Fin 1000000) (q : Fin 128) :
    Read.val_main_v30 (F := Ideal) x1 x4 x5 x9 (ix2 r q)
      = Cert.Spec.msg x1 x4 (fun e => rowOf 50000 (by norm_num) (Read.val_main_v24 (F := Ideal) x9 (ix2 e 0))) r q
        + x5 (ix1 q) := by
  rw [Read.val_main_v30_apply, Read.val_main_v27_apply, Read.val_main_v29_apply, Read.val_main_v28_apply, bidx29]
  simp only [Ideal.addf_def]
  unfold Cert.Spec.msg
  congr 1
  refine Finset.sum_congr rfl fun k _ => ?_
  rw [lidx27, gathered_a, Read.val_main_v26_apply, ridx27]

/-- The summed messages at `(p, q)`: zero plus the sum, over the edges landing on `p`, of message plus bias. -/
theorem summed_a (x1 : (⟨S50000x128, .f32⟩ : BufTy).Contents (Elt Ideal)) (x4 : (⟨S128x128, .f32⟩ : BufTy).Contents (Elt Ideal))
    (x5 : (⟨S128, .f32⟩ : BufTy).Contents (Elt Ideal)) (x8 x9 : (⟨S1000000, .i32⟩ : BufTy).Contents (Elt Ideal))
    (p : Fin 200000) (q : Fin 128) :
    Read.val_main_v33 (F := Ideal) x1 x4 x5 x8 x9 (ix2 p q)
      = (0 : EReal) + ∑ e ∈ landing 200000 (Read.val_main_v32 (F := Ideal) x8) p,
          (Cert.Spec.msg x1 x4 (fun e => rowOf 50000 (by norm_num) (Read.val_main_v24 (F := Ideal) x9 (ix2 e 0))) e q
            + x5 (ix1 q)) := by
  unfold Read.val_main_v33
  refine (scatterAdd_rows_apply scatter_S200000x128_S1000000x1_S1000000x128_1_0_0_1
    Facts₀.scatter_S200000x128_S1000000x1_S1000000x128_1_0_0_1_wf rfl _ _ _ p q).trans (congrArg₂ (· + ·) ?_ ?_)
  · rw [Read.val_main_v31_apply, Read.val_main_cst_5_apply]
    exact Ideal.ofBits_zero_f32
  · exact Finset.sum_congr rfl fun e _ => msg_a x1 x4 x5 x9 e q

/-- The number of edges landing on row `p`, as the sum of ones scattered by the same column. -/
theorem count_a (x8 : (⟨S1000000, .i32⟩ : BufTy).Contents (Elt Ideal)) (p : Fin 200000) :
    Read.val_main_v36 (F := Ideal) x8 (ix1 p)
      = Cert.Spec.count (landing 200000 (Read.val_main_v32 (F := Ideal) x8) p) := by
  unfold Read.val_main_v36 Cert.Spec.count
  refine (scatterAdd_vec_apply scatter_S200000_S1000000x1_S1000000_n_0_0_1
    Facts₀.scatter_S200000_S1000000x1_S1000000_n_0_0_1_wf rfl _ _ _ p).trans (congrArg₂ (· + ·) ?_ ?_)
  · rw [Read.val_main_v34_apply, Read.val_main_cst_6_apply]
    exact Ideal.ofBits_zero_f32
  · refine Finset.sum_congr rfl fun e _ => ?_
    rw [Read.val_main_v0_apply, Read.val_main_cst_apply]
    exact Ideal.ofBits_one_f32

theorem didx40 (p : Fin 200000) (q : Fin 128) : Read.idx_main_v39 (Read.idx_main_v40 (ix2 p q)) = ix1 p :=
  funext fun a => Fin.ext (by match a with | ⟨0, _⟩ => rfl)

/-- The divisor: the count clamped below by one, the same in every column. -/
theorem denom_a (x8 : (⟨S1000000, .i32⟩ : BufTy).Contents (Elt Ideal)) (p : Fin 200000) (q : Fin 128) :
    Read.val_main_v40 (F := Ideal) x8 (ix2 p q)
      = max (Cert.Spec.count (landing 200000 (Read.val_main_v32 (F := Ideal) x8) p)) 1 := by
  rw [Read.val_main_v40_apply, Read.val_main_v39_apply, Read.val_main_v38_apply, didx40, count_a,
    Read.val_main_v37_apply, Read.val_main_cst_7_apply]
  exact congrArg (max _) Ideal.ofBits_one_f32

/-- The mean message of table A is the specification's. -/
theorem mean_a (x1 : (⟨S50000x128, .f32⟩ : BufTy).Contents (Elt Ideal)) (x4 : (⟨S128x128, .f32⟩ : BufTy).Contents (Elt Ideal))
    (x5 : (⟨S128, .f32⟩ : BufTy).Contents (Elt Ideal)) (x8 x9 : (⟨S1000000, .i32⟩ : BufTy).Contents (Elt Ideal)) :
    Read.val_main_v41 (F := Ideal) x1 x4 x5 x8 x9
      = Cert.Spec.refMean x1 x4 x5 (fun e => rowOf 50000 (by norm_num) (Read.val_main_v24 (F := Ideal) x9 (ix2 e 0)))
          (landing 200000 (Read.val_main_v32 (F := Ideal) x8)) := by
  funext j
  obtain ⟨p, q, rfl⟩ : ∃ (p : Fin 200000) (q : Fin 128), j = ix2 p q := ⟨j 0, j 1, eq_ix2 j⟩
  rw [Read.val_main_v41_apply, summed_a, denom_a]
  rfl

/-! ### The joined columns and the gate's contraction -/

/-- The joined array `[row, mean]` at a column below 128 is the row's entry. -/
theorem joined_a_left (x0 : (⟨S200000x128, .f32⟩ : BufTy).Contents (Elt Ideal)) (x1 : (⟨S50000x128, .f32⟩ : BufTy).Contents (Elt Ideal))
    (x4 : (⟨S128x128, .f32⟩ : BufTy).Contents (Elt Ideal)) (x5 : (⟨S128, .f32⟩ : BufTy).Contents (Elt Ideal))
    (x8 x9 : (⟨S1000000, .i32⟩ : BufTy).Contents (Elt Ideal)) (p : Fin 200000) (k : Fin 128) :
    Read.val_main_v42 (F := Ideal) x0 x1 x4 x5 x8 x9 (ix2 p (⟨k.val, by omega⟩ : Fin 256)) = x0 (ix2 p k) := by
  unfold Read.val_main_v42
  exact concatenate_pair_apply_left (t := S200000x256) (s₁ := S200000x128) (s₂ := S200000x128) 1 _ _ _ _ rfl (ix2 p k) (fun b => by
    match b with
    | ⟨0, _⟩ => rfl
    | ⟨1, _⟩ => rfl)

/-- The joined array at a column from 128 on is the mean's entry, 128 columns earlier. -/
theorem joined_a_right (x0 : (⟨S200000x128, .f32⟩ : BufTy).Contents (Elt Ideal)) (x1 : (⟨S50000x128, .f32⟩ : BufTy).Contents (Elt Ideal))
    (x4 : (⟨S128x128, .f32⟩ : BufTy).Contents (Elt Ideal)) (x5 : (⟨S128, .f32⟩ : BufTy).Contents (Elt Ideal))
    (x8 x9 : (⟨S1000000, .i32⟩ : BufTy).Contents (Elt Ideal)) (p : Fin 200000) (k : Fin 128) :
    Read.val_main_v42 (F := Ideal) x0 x1 x4 x5 x8 x9 (ix2 p (⟨128 + k.val, by omega⟩ : Fin 256))
      = Read.val_main_v41 (F := Ideal) x1 x4 x5 x8 x9 (ix2 p k) := by
  unfold Read.val_main_v42
  exact concatenate_pair_apply_right (t := S200000x256) (s₁ := S200000x128) (s₂ := S200000x128) 1 _ _ _ _ rfl rfl (ix2 p k)
    (fun b hb => by
      match b with
      | ⟨0, _⟩ => rfl
      | ⟨1, _⟩ => exact absurd rfl hb)
    (Nat.add_comm k.val 128)

/-- The gate's contraction over the 256 joined columns, as its two halves. -/
theorem logits_a (x0 : (⟨S200000x128, .f32⟩ : BufTy).Contents (Elt Ideal)) (x1 : (⟨S50000x128, .f32⟩ : BufTy).Contents (Elt Ideal))
    (x4 : (⟨S128x128, .f32⟩ : BufTy).Contents (Elt Ideal)) (x5 : (⟨S128, .f32⟩ : BufTy).Contents (Elt Ideal))
    (x6 : (⟨S128x256, .f32⟩ : BufTy).Contents (Elt Ideal))
    (x8 x9 : (⟨S1000000, .i32⟩ : BufTy).Contents (Elt Ideal)) (p : Fin 200000) (q : Fin 128) :
    Read.val_main_v44 (F := Ideal) x0 x1 x4 x5 x6 x8 x9 (ix2 p q)
      = (∑ k : Fin 128, x0 (ix2 p k) * x6 (ix2 q (⟨k.val, by omega⟩ : Fin 256)))
        + (∑ k : Fin 128, Read.val_main_v41 (F := Ideal) x1 x4 x5 x8 x9 (ix2 p k)
            * x6 (ix2 q (⟨128 + k.val, by omega⟩ : Fin 256))) := by
  rw [Read.val_main_v44_apply]
  refine (Fin.sum_univ_add (a := 128) (b := 128) _).trans (congrArg₂ (· + ·) ?_ ?_)
  · refine Finset.sum_congr rfl fun k _ => ?_
    have el : Read.lidx_main_v44 (ix2 p q) (Fin.castAdd 128 k) = ix2 p (⟨k.val, by omega⟩ : Fin 256) :=
      funext fun a => Fin.ext (by match a with | ⟨0, _⟩ => rfl | ⟨1, _⟩ => rfl)
    have er : Read.idx_main_v43 (Read.ridx_main_v44 (ix2 p q) (Fin.castAdd 128 k)) = ix2 q (⟨k.val, by omega⟩ : Fin 256) :=
      funext fun a => Fin.ext (by match a with | ⟨0, _⟩ => rfl | ⟨1, _⟩ => rfl)
    rw [Read.val_main_v43_apply, el, er, joined_a_left]
  · refine Finset.sum_congr rfl fun k _ => ?_
    have el : Read.lidx_main_v44 (ix2 p q) (Fin.natAdd 128 k) = ix2 p (⟨128 + k.val, by omega⟩ : Fin 256) :=
      funext fun a => Fin.ext (by match a with | ⟨0, _⟩ => rfl | ⟨1, _⟩ => rfl)
    have er : Read.idx_main_v43 (Read.ridx_main_v44 (ix2 p q) (Fin.natAdd 128 k)) = ix2 q (⟨128 + k.val, by omega⟩ : Fin 256) :=
      funext fun a => Fin.ext (by match a with | ⟨0, _⟩ => rfl | ⟨1, _⟩ => rfl)
    rw [Read.val_main_v43_apply, el, er, joined_a_right]

theorem gidx46 (p : Fin 200000) (q : Fin 128) : Read.idx_main_v45 (Read.idx_main_v46 (ix2 p q)) = ix1 q :=
  funext fun a => Fin.ext (by match a with | ⟨0, _⟩ => rfl)

/-- Table A's result is the blend of its rows with the mean message. -/
theorem out_a (x0 : (⟨S200000x128, .f32⟩ : BufTy).Contents (Elt Ideal)) (x1 : (⟨S50000x128, .f32⟩ : BufTy).Contents (Elt Ideal))
    (x4 : (⟨S128x128, .f32⟩ : BufTy).Contents (Elt Ideal)) (x5 : (⟨S128, .f32⟩ : BufTy).Contents (Elt Ideal))
    (x6 : (⟨S128x256, .f32⟩ : BufTy).Contents (Elt Ideal)) (x7 : (⟨S128, .f32⟩ : BufTy).Contents (Elt Ideal))
    (x8 x9 : (⟨S1000000, .i32⟩ : BufTy).Contents (Elt Ideal)) :
    Read.val_main_v58 (F := Ideal) x0 x1 x4 x5 x6 x7 x8 x9
      = Cert.Spec.blend x0
          (Cert.Spec.refMean x1 x4 x5 (fun e => rowOf 50000 (by norm_num) (Read.val_main_v24 (F := Ideal) x9 (ix2 e 0)))
            (landing 200000 (Read.val_main_v32 (F := Ideal) x8))) x6 x7 := by
  funext j
  obtain ⟨p, q, rfl⟩ : ∃ (p : Fin 200000) (q : Fin 128), j = ix2 p q := ⟨j 0, j 1, eq_ix2 j⟩
  rw [Read.val_main_v58_apply, Read.val_main_v54_apply, Read.val_main_v57_apply, Read.val_main_v56_apply,
    Read.val_main_v55_apply, Read.val_main_cst_10_apply, Read.val_main_v53_apply, Read.val_main_v52_apply,
    Read.val_main_cst_9_apply, Read.val_main_v51_apply, Read.val_main_v50_apply, Read.val_main_cst_8_apply,
    Read.val_main_v49_apply, Read.val_main_v48_apply, Read.val_main_v47_apply, Read.val_main_v46_apply,
    Read.val_main_v45_apply, gidx46, logits_a, mean_a]
  simp only [Ideal.addf_def, Ideal.subf_def, Ideal.mulf_def, Ideal.hostDivf_def, Ideal.hostNegf_def, Ideal.negf_def,
    Ideal.hostUnary_exp_def, Ideal.ofBits_def, Ideal.ofBits_one_f32]
  rfl

/-! ## Table B: the rows of the second table, messages from the first -/

/-- The gathered rows: entry `(r, k)` is the other table's entry at the row edge `r` selects. -/
theorem gathered_b (x0 : (⟨S200000x128, .f32⟩ : BufTy).Contents (Elt Ideal)) (x8 : (⟨S1000000, .i32⟩ : BufTy).Contents (Elt Ideal))
    (r : Fin 1000000) (k : Fin 128) :
    Read.val_main_v7 (F := Ideal) x0 x8 (ix2 r k)
      = x0 (ix2 (rowOf 200000 (by norm_num) (Read.val_main_v6 (F := Ideal) x8 (ix2 r 0))) k) := by
  unfold Read.val_main_v7
  exact gather_rows_apply (by norm_num) Facts₀.gather_S200000x128_S1000000x1_S1000000x128_1_0_n_n_0_1_1128_wf x0
    (Read.val_main_v6 (F := Ideal) x8) r k

theorem lidx9 (r : Fin 1000000) (q k : Fin 128) : Read.lidx_main_v9 (ix2 r q) k = ix2 r k :=
  funext fun a => Fin.ext (by match a with | ⟨0, _⟩ => rfl | ⟨1, _⟩ => rfl)

theorem ridx9 (r : Fin 1000000) (q k : Fin 128) : Read.idx_main_v8 (Read.ridx_main_v9 (ix2 r q) k) = ix2 q k :=
  funext fun a => Fin.ext (by match a with | ⟨0, _⟩ => rfl | ⟨1, _⟩ => rfl)

theorem bidx11 (r : Fin 1000000) (q : Fin 128) : Read.idx_main_v10 (Read.idx_main_v11 (ix2 r q)) = ix1 q :=
  funext fun a => Fin.ext (by match a with | ⟨0, _⟩ => rfl)

/-- One edge's message with the bias, at `(r, q)`. -/
theorem msg_b (x0 : (⟨S200000x128, .f32⟩ : BufTy).Contents (Elt Ideal)) (x2 : (⟨S128x128, .f32⟩ : BufTy).Contents (Elt Ideal))
    (x3 : (⟨S128, .f32⟩ : BufTy).Contents (Elt Ideal)) (x8 : (⟨S1000000, .i32⟩ : BufTy).Contents (Elt Ideal))
    (r : Fin 1000000) (q : Fin 128) :
    Read.val_main_v12 (F := Ideal) x0 x2 x3 x8 (ix2 r q)
      = Cert.Spec.msg x0 x2 (fun e => rowOf 200000 (by norm_num) (Read.val_main_v6 (F := Ideal) x8 (ix2 e 0))) r q
        + x3 (ix1 q) := by
  rw [Read.val_main_v12_apply, Read.val_main_v9_apply, Read.val_main_v11_apply, Read.val_main_v10_apply, bidx11]
  simp only [Ideal.addf_def]
  unfold Cert.Spec.msg
  congr 1
  refine Finset.sum_congr rfl fun k _ => ?_
  rw [lidx9, gathered_b, Read.val_main_v8_apply, ridx9]

/-- The summed messages at `(p, q)`: zero plus the sum, over the edges landing on `p`, of message plus bias. -/
theorem summed_b (x0 : (⟨S200000x128, .f32⟩ : BufTy).Contents (Elt Ideal)) (x2 : (⟨S128x128, .f32⟩ : BufTy).Contents (Elt Ideal))
    (x3 : (⟨S128, .f32⟩ : BufTy).Contents (Elt Ideal)) (x8 x9 : (⟨S1000000, .i32⟩ : BufTy).Contents (Elt Ideal))
    (p : Fin 50000) (q : Fin 128) :
    Read.val_main_v15 (F := Ideal) x0 x2 x3 x8 x9 (ix2 p q)
      = (0 : EReal) + ∑ e ∈ landing 50000 (Read.val_main_v14 (F := Ideal) x9) p,
          (Cert.Spec.msg x0 x2 (fun e => rowOf 200000 (by norm_num) (Read.val_main_v6 (F := Ideal) x8 (ix2 e 0))) e q
            + x3 (ix1 q)) := by
  unfold Read.val_main_v15
  refine (scatterAdd_rows_apply scatter_S50000x128_S1000000x1_S1000000x128_1_0_0_1
    Facts₀.scatter_S50000x128_S1000000x1_S1000000x128_1_0_0_1_wf rfl _ _ _ p q).trans (congrArg₂ (· + ·) ?_ ?_)
  · rw [Read.val_main_v13_apply, Read.val_main_cst_1_apply]
    exact Ideal.ofBits_zero_f32
  · exact Finset.sum_congr rfl fun e _ => msg_b x0 x2 x3 x8 e q

/-- The number of edges landing on row `p`, as the sum of ones scattered by the same column. -/
theorem count_b (x9 : (⟨S1000000, .i32⟩ : BufTy).Contents (Elt Ideal)) (p : Fin 50000) :
    Read.val_main_v18 (F := Ideal) x9 (ix1 p)
      = Cert.Spec.count (landing 50000 (Read.val_main_v14 (F := Ideal) x9) p) := by
  unfold Read.val_main_v18 Cert.Spec.count
  refine (scatterAdd_vec_apply scatter_S50000_S1000000x1_S1000000_n_0_0_1
    Facts₀.scatter_S50000_S1000000x1_S1000000_n_0_0_1_wf rfl _ _ _ p).trans (congrArg₂ (· + ·) ?_ ?_)
  · rw [Read.val_main_v16_apply, Read.val_main_cst_2_apply]
    exact Ideal.ofBits_zero_f32
  · refine Finset.sum_congr rfl fun e _ => ?_
    rw [Read.val_main_v0_apply, Read.val_main_cst_apply]
    exact Ideal.ofBits_one_f32

theorem didx62 (p : Fin 50000) (q : Fin 128) : Read.idx_main_v61 (Read.idx_main_v62 (ix2 p q)) = ix1 p :=
  funext fun a => Fin.ext (by match a with | ⟨0, _⟩ => rfl)

/-- The divisor: the count clamped below by one, the same in every column. -/
theorem denom_b (x9 : (⟨S1000000, .i32⟩ : BufTy).Contents (Elt Ideal)) (p : Fin 50000) (q : Fin 128) :
    Read.val_main_v62 (F := Ideal) x9 (ix2 p q)
      = max (Cert.Spec.count (landing 50000 (Read.val_main_v14 (F := Ideal) x9) p)) 1 := by
  rw [Read.val_main_v62_apply, Read.val_main_v61_apply, Read.val_main_v60_apply, didx62, count_b,
    Read.val_main_v59_apply, Read.val_main_cst_11_apply]
  exact congrArg (max _) Ideal.ofBits_one_f32

/-- The mean message of table B is the specification's. -/
theorem mean_b (x0 : (⟨S200000x128, .f32⟩ : BufTy).Contents (Elt Ideal)) (x2 : (⟨S128x128, .f32⟩ : BufTy).Contents (Elt Ideal))
    (x3 : (⟨S128, .f32⟩ : BufTy).Contents (Elt Ideal)) (x8 x9 : (⟨S1000000, .i32⟩ : BufTy).Contents (Elt Ideal)) :
    Read.val_main_v63 (F := Ideal) x0 x2 x3 x8 x9
      = Cert.Spec.refMean x0 x2 x3 (fun e => rowOf 200000 (by norm_num) (Read.val_main_v6 (F := Ideal) x8 (ix2 e 0)))
          (landing 50000 (Read.val_main_v14 (F := Ideal) x9)) := by
  funext j
  obtain ⟨p, q, rfl⟩ : ∃ (p : Fin 50000) (q : Fin 128), j = ix2 p q := ⟨j 0, j 1, eq_ix2 j⟩
  rw [Read.val_main_v63_apply, summed_b, denom_b]
  rfl

/-! ### The joined columns and the gate's contraction -/

/-- The joined array `[row, mean]` at a column below 128 is the row's entry. -/
theorem joined_b_left (x0 : (⟨S200000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x8 x9 : (⟨S1000000, .i32⟩ : BufTy).Contents (Elt Ideal)) (p : Fin 50000) (k : Fin 128) :
    Read.val_main_v64 (F := Ideal) x0 x1 x2 x3 x8 x9 (ix2 p (⟨k.val, by omega⟩ : Fin 256)) = x1 (ix2 p k) := by
  unfold Read.val_main_v64
  exact concatenate_pair_apply_left (t := S50000x256) (s₁ := S50000x128) (s₂ := S50000x128) 1 _ _ _ _ rfl (ix2 p k) (fun b => by
    match b with
    | ⟨0, _⟩ => rfl
    | ⟨1, _⟩ => rfl)

/-- The joined array at a column from 128 on is the mean's entry, 128 columns earlier. -/
theorem joined_b_right (x0 : (⟨S200000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x8 x9 : (⟨S1000000, .i32⟩ : BufTy).Contents (Elt Ideal)) (p : Fin 50000) (k : Fin 128) :
    Read.val_main_v64 (F := Ideal) x0 x1 x2 x3 x8 x9 (ix2 p (⟨128 + k.val, by omega⟩ : Fin 256))
      = Read.val_main_v63 (F := Ideal) x0 x2 x3 x8 x9 (ix2 p k) := by
  unfold Read.val_main_v64
  exact concatenate_pair_apply_right (t := S50000x256) (s₁ := S50000x128) (s₂ := S50000x128) 1 _ _ _ _ rfl rfl (ix2 p k)
    (fun b hb => by
      match b with
      | ⟨0, _⟩ => rfl
      | ⟨1, _⟩ => exact absurd rfl hb)
    (Nat.add_comm k.val 128)

/-- The gate's contraction over the 256 joined columns, as its two halves. -/
theorem logits_b (x0 : (⟨S200000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x6 : (⟨S128x256, .f32⟩ : BufTy).Contents (Elt Ideal))
    (x8 x9 : (⟨S1000000, .i32⟩ : BufTy).Contents (Elt Ideal)) (p : Fin 50000) (q : Fin 128) :
    Read.val_main_v66 (F := Ideal) x0 x1 x2 x3 x6 x8 x9 (ix2 p q)
      = (∑ k : Fin 128, x1 (ix2 p k) * x6 (ix2 q (⟨k.val, by omega⟩ : Fin 256)))
        + (∑ k : Fin 128, Read.val_main_v63 (F := Ideal) x0 x2 x3 x8 x9 (ix2 p k)
            * x6 (ix2 q (⟨128 + k.val, by omega⟩ : Fin 256))) := by
  rw [Read.val_main_v66_apply]
  refine (Fin.sum_univ_add (a := 128) (b := 128) _).trans (congrArg₂ (· + ·) ?_ ?_)
  · refine Finset.sum_congr rfl fun k _ => ?_
    have el : Read.lidx_main_v66 (ix2 p q) (Fin.castAdd 128 k) = ix2 p (⟨k.val, by omega⟩ : Fin 256) :=
      funext fun a => Fin.ext (by match a with | ⟨0, _⟩ => rfl | ⟨1, _⟩ => rfl)
    have er : Read.idx_main_v65 (Read.ridx_main_v66 (ix2 p q) (Fin.castAdd 128 k)) = ix2 q (⟨k.val, by omega⟩ : Fin 256) :=
      funext fun a => Fin.ext (by match a with | ⟨0, _⟩ => rfl | ⟨1, _⟩ => rfl)
    rw [Read.val_main_v65_apply, el, er, joined_b_left]
  · refine Finset.sum_congr rfl fun k _ => ?_
    have el : Read.lidx_main_v66 (ix2 p q) (Fin.natAdd 128 k) = ix2 p (⟨128 + k.val, by omega⟩ : Fin 256) :=
      funext fun a => Fin.ext (by match a with | ⟨0, _⟩ => rfl | ⟨1, _⟩ => rfl)
    have er : Read.idx_main_v65 (Read.ridx_main_v66 (ix2 p q) (Fin.natAdd 128 k)) = ix2 q (⟨128 + k.val, by omega⟩ : Fin 256) :=
      funext fun a => Fin.ext (by match a with | ⟨0, _⟩ => rfl | ⟨1, _⟩ => rfl)
    rw [Read.val_main_v65_apply, el, er, joined_b_right]

theorem gidx68 (p : Fin 50000) (q : Fin 128) : Read.idx_main_v67 (Read.idx_main_v68 (ix2 p q)) = ix1 q :=
  funext fun a => Fin.ext (by match a with | ⟨0, _⟩ => rfl)

/-- Table B's result is the blend of its rows with the mean message. -/
theorem out_b (x0 : (⟨S200000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x6 : (⟨S128x256, .f32⟩ : BufTy).Contents (Elt Ideal)) (x7 : (⟨S128, .f32⟩ : BufTy).Contents (Elt Ideal))
    (x8 x9 : (⟨S1000000, .i32⟩ : BufTy).Contents (Elt Ideal)) :
    Read.val_main_v80 (F := Ideal) x0 x1 x2 x3 x6 x7 x8 x9
      = Cert.Spec.blend x1
          (Cert.Spec.refMean x0 x2 x3 (fun e => rowOf 200000 (by norm_num) (Read.val_main_v6 (F := Ideal) x8 (ix2 e 0)))
            (landing 50000 (Read.val_main_v14 (F := Ideal) x9))) x6 x7 := by
  funext j
  obtain ⟨p, q, rfl⟩ : ∃ (p : Fin 50000) (q : Fin 128), j = ix2 p q := ⟨j 0, j 1, eq_ix2 j⟩
  rw [Read.val_main_v80_apply, Read.val_main_v76_apply, Read.val_main_v79_apply, Read.val_main_v78_apply,
    Read.val_main_v77_apply, Read.val_main_cst_14_apply, Read.val_main_v75_apply, Read.val_main_v74_apply,
    Read.val_main_cst_13_apply, Read.val_main_v73_apply, Read.val_main_v72_apply, Read.val_main_cst_12_apply,
    Read.val_main_v71_apply, Read.val_main_v70_apply, Read.val_main_v69_apply, Read.val_main_v68_apply,
    Read.val_main_v67_apply, gidx68, logits_b, mean_b]
  simp only [Ideal.addf_def, Ideal.subf_def, Ideal.mulf_def, Ideal.hostDivf_def, Ideal.hostNegf_def, Ideal.negf_def,
    Ideal.hostUnary_exp_def, Ideal.ofBits_def, Ideal.ofBits_one_f32]
  rfl

end Cert.ReferenceIdeal.RefValue

end
-- ==== Proof.LibAggLinear.lean ====
/-
  Real-valued extended reals, and the law that lets a weighted row aggregation pass through a right matrix product.

  An extended real is REAL when it is the image of a real number. Reals are closed under `+`, `·`, `max` and finite
  sums, and on them the extended reals' arithmetic is the reals' (where distributivity holds, which it does not
  at the infinities).

  The law (`agg_dot`): for real coefficients, aggregating rows and then multiplying on the right by a matrix column
  is multiplying each row first and then aggregating:
    ∑ₖ ((z + ∑_{r ∈ E} a r k · n r) + c k · t) · W k  =  (z + ∑_{r ∈ E} (∑ₖ a r k · W k) · n r) + (∑ₖ c k · W k) · t,
  with `z = 0`. It is distributivity and an exchange of two finite sums.
-/
import Idealize.ShloMosaic.PureOps.Ideal

noncomputable section

namespace Cert.Lib.AggLinear

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- The embedding of the reals commutes with finite sums. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.sum {ι : Type*} (s : Finset ι) (f : ι → EReal) (h : ∀ i ∈ s, IsReal (f i)) : IsReal (∑ i ∈ s, f i) := by
  induction s using Finset.cons_induction with
  | empty => simpa using isReal_zero
  | cons a s ha ih =>
    rw [Finset.sum_cons]
    exact (h a (Finset.mem_cons_self a s)).add (ih fun i hi => h i (Finset.mem_cons.mpr (Or.inr hi)))

/-- A sum of ones is a natural number: real and nonnegative. -/
theorem sum_one_eq {ι : Type*} (s : Finset ι) : (∑ _i ∈ s, (1 : EReal)) = ((s.card : ℝ) : EReal) := by
  have : (∑ _i ∈ s, ((1 : ℝ) : EReal)) = (((∑ _i ∈ s, (1 : ℝ)) : ℝ) : EReal) := (coe_sum s fun _ => (1 : ℝ)).symm
  rw [show (1 : EReal) = ((1 : ℝ) : EReal) from rfl, this]
  simp

/-- Aggregating rows with real weights and then taking a real column combination is combining first and aggregating after. -/
theorem agg_dot {ε κ : Type*} [Fintype κ] (E : Finset ε) (a : ε → κ → EReal) (n : ε → EReal) (c : κ → EReal) (t : EReal)
    (W : κ → EReal) (ha : ∀ r k, IsReal (a r k)) (hn : ∀ r, IsReal (n r)) (hc : ∀ k, IsReal (c k)) (ht : IsReal t)
    (hW : ∀ k, IsReal (W k)) :
    ∑ k, (((0 : EReal) + ∑ r ∈ E, a r k * n r) + c k * t) * W k
      = ((0 : EReal) + ∑ r ∈ E, (∑ k, a r k * W k) * n r) + (∑ k, c k * W k) * t := by
  choose a' ha' using ha
  choose n' hn' using hn
  choose c' hc' using hc
  obtain ⟨t', rfl⟩ := ht
  choose W' hW' using hW
  have key : (∑ k, (((0 : ℝ) + ∑ r ∈ E, a' r k * n' r) + c' k * t') * W' k)
      = ((0 : ℝ) + ∑ r ∈ E, (∑ k, a' r k * W' k) * n' r) + (∑ k, c' k * W' k) * t' := by
    simp only [zero_add, add_mul, Finset.sum_add_distrib, Finset.sum_mul]
    congr 1
    · rw [Finset.sum_comm]
      refine Finset.sum_congr rfl fun r _ => Finset.sum_congr rfl fun k _ => ?_
      ring
    · refine Finset.sum_congr rfl fun k _ => ?_
      ring
  have e := congrArg (fun x : ℝ => (x : EReal)) key
  simp only [EReal.coe_add, EReal.coe_mul, coe_sum, EReal.coe_zero] at e
  simpa only [ha', hn', hc', hW'] using e

end Cert.Lib.AggLinear

end
-- ==== Proof.LibSumAddConst.lean ====
/-
  A constant added under a finite sum, on the extended reals.

  `∑_{e ∈ S} (x e + b) = ∑_{e ∈ S} x e + |S| · b` for real `x e` and real `b`, with `|S|` written as a sum of ones and both
  sums started from zero (the form a scatter-add into a zero array reads as). The law fails on the extended reals without
  the hypotheses: with `x e = +∞` for one edge and `b = −∞` the left side is `−∞` and the right side `+∞ + (−∞)`.
-/
import proofs.«125434_j47390669144622_2_alg».proof.Proof.LibAggLinear

noncomputable section

namespace Cert.Lib.SumAddConst

open Cert.Lib.AggLinear

/-- Summing `x e + b` over a finite set is summing the `x e` and adding `count · b`, for real `x e` and `b`, the count
    being the sum of ones from zero. -/
theorem sum_add_const {ι : Type*} (S : Finset ι) (x : ι → EReal) (b : EReal) (hx : ∀ e ∈ S, IsReal (x e)) (hb : IsReal b) :
    ((0 : EReal) + ∑ e ∈ S, x e) + ((0 : EReal) + ∑ _e ∈ S, (1 : EReal)) * b = (0 : EReal) + ∑ e ∈ S, (x e + b) := by
  obtain ⟨b', rfl⟩ := hb
  have hx' : ∀ e : ι, ∃ r : ℝ, e ∈ S → x e = (r : EReal) := fun e => by
    by_cases he : e ∈ S
    · obtain ⟨r, hr⟩ := hx e he; exact ⟨r, fun _ => hr⟩
    · exact ⟨0, fun h => absurd h he⟩
  choose x' hx'' using hx'
  have e1 : ∑ e ∈ S, x e = ((∑ e ∈ S, x' e : ℝ) : EReal) := by
    rw [coe_sum]; exact Finset.sum_congr rfl fun e he => hx'' e he
  have e2 : ∑ e ∈ S, (x e + (b' : EReal)) = ((∑ e ∈ S, (x' e + b') : ℝ) : EReal) := by
    rw [coe_sum]; exact Finset.sum_congr rfl fun e he => by rw [hx'' e he, EReal.coe_add]
  rw [e1, e2, sum_one_eq, zero_add, zero_add, zero_add, ← EReal.coe_mul, ← EReal.coe_add, Finset.sum_add_distrib,
    Finset.sum_const, nsmul_eq_mul]

end Cert.Lib.SumAddConst

end
-- ==== Proof.MeanLaw.lean ====
/-
  The one algebraic law between the two programs.

  For the edges `S` landing on a row, the reference sums `x e + b` over `e ∈ S`; the kernel sums the `x e` and adds
  `|S| · b` once, `|S|` itself obtained as a sum of ones. On the real numbers these agree:
  `∑_{e ∈ S} (x e + b) = ∑_{e ∈ S} x e + |S| · b`. On the extended reals the law needs the `x e` and `b` to be real
  (with `x e = +∞` for one edge and `b = −∞` the two sides differ), and that is where the finiteness of the inputs
  is used: a message `∑ k, other[g e, k] · W[q, k]` of real entries is real.
-/
import proofs.«125434_j47390669144622_2_alg».proof.Proof.Spec
import proofs.«125434_j47390669144622_2_alg».proof.Proof.LibAggLinear
import proofs.«125434_j47390669144622_2_alg».proof.Proof.LibSumAddConst

noncomputable section

namespace Cert.MeanLaw

open Idealize.ShloMosaic Idealize.ShloMosaic.ValueIdx Cert.Spec Cert.Lib.AggLinear Cert.Lib.SumAddConst

/-- A message of real entries through a real map is real. -/
theorem isReal_msg {n' E : ℕ} (other : (⟨2, ![n', 128]⟩ : Shape).Idx → EReal) (W : (⟨2, ![128, 128]⟩ : Shape).Idx → EReal)
    (g : Fin E → Fin n') (hO : ∀ i, IsReal (other i)) (hW : ∀ i, IsReal (W i)) (e : Fin E) (q : Fin 128) :
    IsReal (msg other W g e q) :=
  IsReal.sum _ _ fun k _ => (hO _).mul (hW _)

/-- For real tables, maps and biases the kernel's mean message is the reference's. -/
theorem kerMean_eq_refMean {n n' E : ℕ} (other : (⟨2, ![n', 128]⟩ : Shape).Idx → EReal)
    (W : (⟨2, ![128, 128]⟩ : Shape).Idx → EReal) (b : (⟨1, ![128]⟩ : Shape).Idx → EReal) (g : Fin E → Fin n')
    (L : Fin n → Finset (Fin E)) (hO : ∀ i, IsReal (other i)) (hW : ∀ i, IsReal (W i)) (hb : ∀ i, IsReal (b i)) :
    kerMean other W b g L = refMean other W b g L := by
  funext j
  unfold kerMean refMean count
  rw [sum_add_const (L (j 0)) (fun e => msg other W g e (j 1)) (b (ix1 (j 1)))
    (fun e _ => isReal_msg other W g hO hW e (j 1)) (hb _)]

end Cert.MeanLaw

end
-- ==== Proof.LibFiniteEntries.lean ====
/-
  Entries that pass a finiteness test are real numbers.

  A precondition "every float input is finite" is printed, per array, as: take the absolute value of every entry,
  compare it strictly below `+∞`, and reduce all the comparisons with `and` into one bit. On the extended reals the
  absolute value of `x` is `max x (−x)`, and `max x (−x) < ⊤` excludes exactly `x = ⊤` and `x = ⊥`. So when the reduced
  bit is one every entry of the array is a real number (`all_real`), whatever the array's shape and the axes reduced.
-/
import proofs.«125434_j47390669144622_2_alg».proof.Proof.LibAggLinear
import proofs.«125434_j47390669144622_2_alg».proof.Proof.LibBcastChain
import Idealize.ShloMosaic.Lib.ReduceAll
import Idealize.ShloMosaic.Lib.ValueIdx
import Idealize.ShloMosaic.PureOps.Ideal

noncomputable section

namespace Cert.Lib.FiniteEntries

open Idealize.ShloMosaic Idealize.ShloMosaic.ValueIdx Cert.Lib.AggLinear Cert.Lib.BcastChain

/-- The rank-0 shape has one index. -/
instance : Subsingleton (⟨0, ![]⟩ : Shape).Idx := ⟨fun a b => funext fun d => d.elim0⟩

/-- An extended real whose absolute value compares strictly below the pattern of `+∞` is a real number. -/
theorem isReal_of_lt_inf (x : EReal)
    (h : FloatOps.cmpf (F := Ideal) (φ := .f32) .olt (FloatOps.hostAbsf (F := Ideal) (φ := .f32) x) (Ideal.ofBits .f32 0x7F800000#32) = 1#1) :
    IsReal x := by
  have htop : Ideal.ofBits .f32 0x7F800000#32 = (⊤ : EReal) := by simp [Ideal.ofBits, Ideal.ieee]
  have h1 : BitVec.ofBool (decide (max x (-x) < Ideal.ofBits .f32 0x7F800000#32)) = 1#1 := h
  rw [htop] at h1
  have h' : max x (-x) < (⊤ : EReal) := by
    by_contra hn
    rw [decide_eq_false hn] at h1
    exact absurd h1 (by decide)
  induction x using EReal.rec with
  | bot => simp at h'
  | coe r => exact ⟨r, rfl⟩
  | top => simp at h'

/-- One of the predicate's eight reductions being one makes every entry of its array real. -/
theorem all_real {s : Shape} {axes : List (Fin s.rank)} (X : FVec Ideal s .f32) (dims : Fin 0 → Fin s.rank)
    (hb : (⟨0, ![]⟩ : Shape).BroadcastsInDim s dims) (hr : s.ReducesTo axes ⟨0, ![]⟩) (hu : 0 < (⟨0, ![]⟩ : Shape).numel)
    (e : Host.reduce IntOp.andi (cmpf .olt (Host.absf X) (broadcastInDim s dims hb (constant (F := Ideal) ⟨0, ![]⟩ .f32 0x7F800000#32)))
      (constantI ⟨0, ![]⟩ 1 1#1) hr hu ix0 = 1#1) (i : s.Idx) : IsReal (X i) := by
  have hi := Host.reduce_andi_all _ _ hr hu ix0 e i
  rw [cmpf_apply, overAll_apply, constant_apply] at hi
  exact isReal_of_lt_inf (X i) hi

end Cert.Lib.FiniteEntries

end
-- ==== Proof.Finite.lean ====
/-
  The precondition says every float input is a real number.

  The printed predicate takes, for each of the eight float arguments, the absolute value of every entry, compares it
  with `+∞` (strictly less), reduces the comparisons with `and`, and joins the eight reductions with `and`. It being
  all ones means every comparison is one: `max x (−x) < ⊤` for every entry `x`, which on the extended reals says `x` is
  neither `⊤` nor `⊥`, that is, a real.
-/
import proofs.«125434_j47390669144622_2_alg».proof.Pre_finite_inputs
import proofs.«125434_j47390669144622_2_alg».proof.Proof.LibFiniteEntries
import Idealize.ShloMosaic.Lib.Affine
import Idealize.ShloMosaic.Lib.ValueIdx
import Idealize.ShloMosaic.PureOps.Ideal

noncomputable section

namespace Cert.Finite

open Idealize.ShloMosaic Idealize.ShloMosaic.ValueIdx Cert.Lib.AggLinear Cert.Lib.FiniteEntries

variable [Cert.Pre_finite_inputs.Facts]

open Cert.Pre_finite_inputs Cert.Pre_finite_inputs.Facts in
/-- The predicate all ones: every entry of every float argument is real. -/
theorem reals_of_pre (a0 : FVec Ideal S200000x128 .f32) (a1 : FVec Ideal S50000x128 .f32) (a2 : FVec Ideal S128x128 .f32)
    (a3 : FVec Ideal S128 .f32) (a4 : FVec Ideal S128x128 .f32) (a5 : FVec Ideal S128 .f32) (a6 : FVec Ideal S128x256 .f32)
    (a7 : FVec Ideal S128 .f32) (a8 a9 : IVec S1000000 32)
    (h : Cert.Pre_finite_inputs.fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨e0, e1⟩, e2⟩, e3⟩, e4⟩, e5⟩, e6⟩, e7⟩ := h0
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6, all_real a7 _ _ _ _ e7⟩

end Cert.Finite

end
-- ==== Proof.lean ====
/-
  The kernel program and its reference compute the same two tables on the extended reals, for real inputs.

  Both programs blend each of two tables with the mean of the messages its rows receive from the other table along a
  million edges. A message is a row of the other table through the relation's matrix, plus the relation's bias. The
  reference gathers the rows edge by edge, maps each, adds the bias, and sums per destination row. The kernel maps the
  whole other table once (regions 0 and 1), gathers and sums the mapped rows on the host, and adds `count · bias` inside
  its blending stage (regions 2 and 3). Mapping commutes with selecting rows with no condition at all; what joins the
  two programs is the law `∑_{e ∈ S} (x e + b) = ∑_{e ∈ S} x e + |S| · b`, which holds for real `x e` and `b` and is where
  the precondition (every float input finite) is used. The gate `1 / (1 + exp (−z))` of the reference is the kernel's
  logistic function by definition, and the reference's contraction over the 256 joined columns is the kernel's two
  contractions over 128.

  The three frames are the generated ones (the reference's is its generated run with the results dropped), the
  idealization rewrote nothing, and the algebraic claim puts the kernel's run with its results named next to the
  reference's run and identifies the two result terms.
-/
import proofs.«125434_j47390669144622_2_alg».proof.Defs
import proofs.«125434_j47390669144622_2_alg».proof.Proof.Gen.Kernel
import proofs.«125434_j47390669144622_2_alg».proof.Proof.Gen.Kernel.Skeleton
import proofs.«125434_j47390669144622_2_alg».proof.Proof.Gen.Kernel.Launch
import proofs.«125434_j47390669144622_2_alg».proof.Proof.Gen.Kernel.Points
import proofs.«125434_j47390669144622_2_alg».proof.Proof.Gen.Kernel.Frame
import proofs.«125434_j47390669144622_2_alg».proof.Proof.Gen.KernelIdeal
import proofs.«125434_j47390669144622_2_alg».proof.Proof.Gen.KernelIdeal.Skeleton
import proofs.«125434_j47390669144622_2_alg».proof.Proof.Gen.KernelIdeal.Launch
import proofs.«125434_j47390669144622_2_alg».proof.Proof.Gen.KernelIdeal.Points
import proofs.«125434_j47390669144622_2_alg».proof.Proof.Gen.KernelIdeal.Frame
import proofs.«125434_j47390669144622_2_alg».proof.Proof.Gen.ReferenceIdeal
import proofs.«125434_j47390669144622_2_alg».proof.Proof.Gen.Pre_finite_inputs
import proofs.«125434_j47390669144622_2_alg».proof.Proof.Gen.ReferenceIdeal.Run
import proofs.«125434_j47390669144622_2_alg».proof.Proof.Gen.ReferenceIdeal.Read
import proofs.«125434_j47390669144622_2_alg».proof.Proof.KernelRun
import proofs.«125434_j47390669144622_2_alg».proof.Proof.KernelValue
import proofs.«125434_j47390669144622_2_alg».proof.Proof.RefValue
import proofs.«125434_j47390669144622_2_alg».proof.Proof.MeanLaw
import proofs.«125434_j47390669144622_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The index columns of the two programs are the same terms -/

/-- The reference's wrapped destination ids are the kernel's. -/
theorem wrapped_dst (x9 : IVec Cert.KernelIdeal.S1000000 32) :
    Cert.ReferenceIdeal.Read.val_main_v24 (F := Ideal) x9 = Cert.KernelIdeal.Fold.wrapCol 50000#32 x9 := rfl
/-- The reference's wrapped source ids are the kernel's. -/
theorem wrapped_src (x8 : IVec Cert.KernelIdeal.S1000000 32) :
    Cert.ReferenceIdeal.Read.val_main_v6 (F := Ideal) x8 = Cert.KernelIdeal.Fold.wrapCol 200000#32 x8 := rfl
/-- The raw source ids as a column. -/
theorem raw_src (x8 : IVec Cert.KernelIdeal.S1000000 32) : Cert.ReferenceIdeal.Read.val_main_v32 (F := Ideal) x8 = Cert.KernelIdeal.Fold.rawCol x8 := rfl
/-- The raw destination ids as a column. -/
theorem raw_dst (x9 : IVec Cert.KernelIdeal.S1000000 32) : Cert.ReferenceIdeal.Read.val_main_v14 (F := Ideal) x9 = Cert.KernelIdeal.Fold.rawCol x9 := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments the two programs end with equal results: the kernel's two result buffers
    hold the blend with the kernel's mean, the reference's the blend with the reference's mean, and for real tables,
    matrices and biases the two means are one function. -/
theorem algebraic : Cert.algebraic_KernelIdeal_ReferenceIdeal := by
  intro m ρ m' ρ' hpre hagree
  refine ⟨_, _, Cert.KernelIdeal.KernelRun.run_values (F := Ideal) m ρ, ?_⟩
  refine (θ_run Cert.ReferenceIdeal.defs _ _).mono (fun r h c => ?_) (Cert.ReferenceIdeal.Value.run (F := Ideal) m' ρ')
  obtain ⟨r0, r1, r2, r3, r4, r5, -, -⟩ := Cert.Finite.reals_of_pre _ _ _ _ _ _ _ _ _ _ (hpre c)
  obtain ⟨a0, a1, a2, a3, a4, a5, a6, a7, a8, a9⟩ := hagree c
  refine ⟨(h c).1.trans ?_, (h c).2.1.trans ?_, (h c).2.2⟩
  · rw [Cert.ReferenceIdeal.Read.val_main_v58_eq, a0, a1, a4, a5, a6, a7, a8, a9, Cert.ReferenceIdeal.RefValue.out_a, wrapped_dst, raw_src,
      Cert.KernelIdeal.KernelValue.result_a, Cert.MeanLaw.kerMean_eq_refMean _ _ _ _ _ r1 r4 r5]
  · rw [Cert.ReferenceIdeal.Read.val_main_v80_eq, a0, a1, a2, a3, a6, a7, a8, a9, Cert.ReferenceIdeal.RefValue.out_b, wrapped_src, raw_dst,
      Cert.KernelIdeal.KernelValue.result_b, Cert.MeanLaw.kerMean_eq_refMean _ _ _ _ _ r0 r2 r3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
